-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8192 : Shape := ⟨2, ![64, 8192]⟩
abbrev S8192x8192 : Shape := ⟨2, ![8192, 8192]⟩
abbrev S262144x2 : Shape := ⟨2, ![262144, 2]⟩
abbrev S262144 : Shape := ⟨1, ![262144]⟩
abbrev S_ : Shape := ⟨0, ![]⟩

class Facts : Prop where
  bcast_S_S64x8192 : S_.BroadcastsInDim S64x8192 (![] : Fin 0 → Fin S64x8192.rank)
  reducesTo_S64x8192_S_d0_1 : S64x8192.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S262144 : S_.BroadcastsInDim S262144 (![] : Fin 0 → Fin S262144.rank)
  reducesTo_S262144_S_d0 : S262144.ReducesTo [0] S_

variable [Facts]

def fn {F : FTy → Type} [FloatOps F] (main_arg0 : FVec F S64x8192 .f32) (main_arg1 : FVec F S8192x8192 .f32) (main_arg2 : IVec S262144x2 32) (main_arg3 : FVec F S262144 .f32) : IVec S_ 1 :=
  let main_v0 : FVec F S64x8192 .f32 := Host.absf main_arg0
  let main_cst : FVec F S_ .f32 := constant S_ .f32 0x7F800000#32
  let main_v1 : FVec F S64x8192 .f32 := broadcastInDim S64x8192 ![] bcast_S_S64x8192 main_cst
  let main_v2 : IVec S64x8192 1 := cmpf .olt main_v0 main_v1
  let main_c : IVec S_ 1 := constantI S_ 1 1#1
  let main_v3 : IVec S_ 1 := (fun x v => Host.reduce IntOp.andi x v reducesTo_S64x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S262144 .f32 := Host.absf main_arg3
  let main_cst_2 : FVec F S_ .f32 := constant S_ .f32 0x7F800000#32
  let main_v10 : FVec F S262144 .f32 := broadcastInDim S262144 ![] bcast_S_S262144 main_cst_2
  let main_v11 : IVec S262144 1 := cmpf .olt main_v9 main_v10
  let main_c_3 : IVec S_ 1 := constantI S_ 1 1#1
  let main_v12 : IVec S_ 1 := (fun x v => Host.reduce IntOp.andi x v reducesTo_S262144_S_d0 h_S_) main_v11 main_c_3
  let main_v13 : IVec S_ 1 := andi main_v8 main_v12
  main_v13
-- ==== Kernel.lean ====
abbrev S64x8192 : Shape := ⟨2, ![64, 8192]⟩
abbrev S8192x8192 : Shape := ⟨2, ![8192, 8192]⟩
abbrev S262144x2 : Shape := ⟨2, ![262144, 2]⟩
abbrev S262144 : Shape := ⟨1, ![262144]⟩
abbrev S262144x1 : Shape := ⟨2, ![262144, 1]⟩
abbrev S_ : Shape := ⟨0, ![]⟩
abbrev S64x1024 : Shape := ⟨2, ![64, 1024]⟩
abbrev S1024x1024 : Shape := ⟨2, ![1024, 1024]⟩

abbrev nBuf : Space → Nat
  | .hbm => 30
  | .vmem => 14
  | .smem => 0
  | _ => 0

abbrev bufTy : (tb : Table) → Fin (tcTables nBuf tb) → BufTy
  | .hbm, ⟨0, _⟩ => ⟨S64x8192, .f32⟩
  | .hbm, ⟨1, _⟩ => ⟨S8192x8192, .f32⟩
  | .hbm, ⟨2, _⟩ => ⟨S262144x2, .i32⟩
  | .hbm, ⟨3, _⟩ => ⟨S262144, .f32⟩
  | .hbm, ⟨4, _⟩ => ⟨S262144x1, .i32⟩
  | .hbm, ⟨5, _⟩ => ⟨S262144, .i32⟩
  | .hbm, ⟨6, _⟩ => ⟨S262144x1, .i32⟩
  | .hbm, ⟨7, _⟩ => ⟨S262144, .i32⟩
  | .hbm, ⟨8, _⟩ => ⟨S_, .f32⟩
  | .hbm, ⟨9, _⟩ => ⟨S8192x8192, .f32⟩
  | .hbm, ⟨10, _⟩ => ⟨S_, .i32⟩
  | .hbm, ⟨11, _⟩ => ⟨S262144, .i32⟩
  | .hbm, ⟨12, _⟩ => ⟨S262144, .i1⟩
  | .hbm, ⟨13, _⟩ => ⟨S_, .i32⟩
  | .hbm, ⟨14, _⟩ => ⟨S262144, .i32⟩
  | .hbm, ⟨15, _⟩ => ⟨S262144, .i32⟩
  | .hbm, ⟨16, _⟩ => ⟨S262144, .i32⟩
  | .hbm, ⟨17, _⟩ => ⟨S_, .i32⟩
  | .hbm, ⟨18, _⟩ => ⟨S262144, .i32⟩
  | .hbm, ⟨19, _⟩ => ⟨S262144, .i1⟩
  | .hbm, ⟨20, _⟩ => ⟨S_, .i32⟩
  | .hbm, ⟨21, _⟩ => ⟨S262144, .i32⟩
  | .hbm, ⟨22, _⟩ => ⟨S262144, .i32⟩
  | .hbm, ⟨23, _⟩ => ⟨S262144, .i32⟩
  | .hbm, ⟨24, _⟩ => ⟨S262144x1, .i32⟩
  | .hbm, ⟨25, _⟩ => ⟨S262144x1, .i32⟩
  | .hbm, ⟨26, _⟩ => ⟨S262144x2, .i32⟩
  | .hbm, ⟨27, _⟩ => ⟨S8192x8192, .f32⟩
  | .hbm, ⟨28, _⟩ => ⟨S64x8192, .f32⟩
  | .hbm, ⟨29, _⟩ => ⟨S64x8192, .f32⟩
  | .local _ .vmem, ⟨0, _⟩ => ⟨S64x1024, .f32⟩
  | .local _ .vmem, ⟨1, _⟩ => ⟨S64x1024, .f32⟩
  | .local _ .vmem, ⟨2, _⟩ => ⟨S1024x1024, .f32⟩
  | .local _ .vmem, ⟨3, _⟩ => ⟨S1024x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S1024x1024, .f32⟩
  | .local _ .vmem, ⟨10, _⟩ => ⟨S1024x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | _, _ => ⟨S64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v15 : BitVec 1 := Scalar.cmpi .eq arg1 c7_i32
  let v16 : BitVec 32 := Scalar.extui v15
  let c0_i32_8 : BitVec 32 := 0#32
  let v17 : BitVec 1 := Scalar.cmpi .ne v16 c0_i32_8
  v17

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S64x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S64x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  slices_S262144x2_S262144x1_0_0 : S262144x2.Slices ![0, 0] S262144x1
  shapeCasts_S262144x1_S262144 : S262144x1.ShapeCasts S262144
  slices_S262144x2_S262144x1_0_1 : S262144x2.Slices ![0, 1] S262144x1
  bcast_S_S8192x8192 : S_.BroadcastsInDim S8192x8192 (![] : Fin 0 → Fin S8192x8192.rank)
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  scatter_S8192x8192_S262144x2_S262144_n_01_01_1_wf : ScatterDims.WF S8192x8192 S262144x2 S262144 [] [0, 1] [0, 1] 1
  dot_S64x1024_S1024x1024_S64x1024_1_1_0_0_n_n_wf : DotDims.WF S64x1024 S1024x1024 S64x1024 [1] [1] [0] [0] [] []
  dot_S64x1024_S1024x1024_S64x1024_1_0_0_1_n_n_wf : DotDims.WF S64x1024 S1024x1024 S64x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x1024.size a ≤ S64x8192.size a
  hwx0_0 : ∀ i : grid0.Coords, EltTy.bits .f32 = 32 ∨ (Rect.block (s := S64x8192) S64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x8192.size a
  hwx0_1 : ∀ i : grid0.Coords, EltTy.bits .f32 = 32 ∨ (Rect.block (s := S8192x8192) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1024.size a ≤ S64x8192.size a
  hwx0_2 : ∀ i : grid0.Coords, EltTy.bits .f32 = 32 ∨ (Rect.block (s := S64x8192) S64x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x1024.size a ≤ S64x8192.size a
  hwx1_0 : ∀ i : grid1.Coords, EltTy.bits .f32 = 32 ∨ (Rect.block (s := S64x8192) S64x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x8192.size a
  hwx1_1 : ∀ i : grid1.Coords, EltTy.bits .f32 = 32 ∨ (Rect.block (s := S8192x8192) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x1024.size a ≤ S64x8192.size a
  hwx1_2 : ∀ i : grid1.Coords, EltTy.bits .f32 = 32 ∨ (Rect.block (s := S64x8192) S64x1024.size (cc1_transform_2 i) (hinb1_2 i)).WholeWords (EltTy.packing .f32)

variable [Facts₀]

def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf
def dot_S64x1024_S1024x1024_S64x1024_1_1_0_0_n_n : DotDims S64x1024 S1024x1024 S64x1024 where
  lhsContracting := [1]
  rhsContracting := [1]
  lhsNonContracting := [0]
  rhsNonContracting := [0]
  lhsBatch := []
  rhsBatch := []
  wf := dot_S64x1024_S1024x1024_S64x1024_1_1_0_0_n_n_wf
def dot_S64x1024_S1024x1024_S64x1024_1_0_0_1_n_n : DotDims S64x1024 S1024x1024 S64x1024 where
  lhsContracting := [1]
  rhsContracting := [0]
  lhsNonContracting := [0]
  rhsNonContracting := [1]
  lhsBatch := []
  rhsBatch := []
  wf := dot_S64x1024_S1024x1024_S64x1024_1_0_0_1_n_n_wf

abbrev win0_0 : Pipeline.Window sig grid0 :=
  Pipeline.Window.ofSpec (Memref.whole main_arg0) S64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S64x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v19) S64x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S64x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S64x8192 : Shape := ⟨2, ![64, 8192]⟩
abbrev S8192x8192 : Shape := ⟨2, ![8192, 8192]⟩
abbrev S262144x2 : Shape := ⟨2, ![262144, 2]⟩
abbrev S262144 : Shape := ⟨1, ![262144]⟩
abbrev S262144x1 : Shape := ⟨2, ![262144, 1]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S64x8192, .f32⟩
  | .hbm, ⟨1, _⟩ => ⟨S8192x8192, .f32⟩
  | .hbm, ⟨2, _⟩ => ⟨S262144x2, .i32⟩
  | .hbm, ⟨3, _⟩ => ⟨S262144, .f32⟩
  | .hbm, ⟨4, _⟩ => ⟨S8192x8192, .f32⟩
  | .hbm, ⟨5, _⟩ => ⟨S64x8192, .f32⟩
  | .hbm, ⟨6, _⟩ => ⟨S262144x1, .i32⟩
  | .hbm, ⟨7, _⟩ => ⟨S262144, .i32⟩
  | .hbm, ⟨8, _⟩ => ⟨S262144x1, .i32⟩
  | .hbm, ⟨9, _⟩ => ⟨S262144, .i32⟩
  | .hbm, ⟨10, _⟩ => ⟨S_, .f32⟩
  | .hbm, ⟨11, _⟩ => ⟨S8192x8192, .f32⟩
  | .hbm, ⟨12, _⟩ => ⟨S_, .i32⟩
  | .hbm, ⟨13, _⟩ => ⟨S262144, .i32⟩
  | .hbm, ⟨14, _⟩ => ⟨S262144, .i1⟩
  | .hbm, ⟨15, _⟩ => ⟨S_, .i32⟩
  | .hbm, ⟨16, _⟩ => ⟨S262144, .i32⟩
  | .hbm, ⟨17, _⟩ => ⟨S262144, .i32⟩
  | .hbm, ⟨18, _⟩ => ⟨S262144, .i32⟩
  | .hbm, ⟨19, _⟩ => ⟨S_, .i32⟩
  | .hbm, ⟨20, _⟩ => ⟨S262144, .i32⟩
  | .hbm, ⟨21, _⟩ => ⟨S262144, .i1⟩
  | .hbm, ⟨22, _⟩ => ⟨S_, .i32⟩
  | .hbm, ⟨23, _⟩ => ⟨S262144, .i32⟩
  | .hbm, ⟨24, _⟩ => ⟨S262144, .i32⟩
  | .hbm, ⟨25, _⟩ => ⟨S262144, .i32⟩
  | .hbm, ⟨26, _⟩ => ⟨S262144x1, .i32⟩
  | .hbm, ⟨27, _⟩ => ⟨S262144x1, .i32⟩
  | .hbm, ⟨28, _⟩ => ⟨S262144x2, .i32⟩
  | .hbm, ⟨29, _⟩ => ⟨S8192x8192, .f32⟩
  | .hbm, ⟨30, _⟩ => ⟨S64x8192, .f32⟩
  | .hbm, ⟨31, _⟩ => ⟨S_, .f32⟩
  | .hbm, ⟨32, _⟩ => ⟨S64x8192, .f32⟩
  | .hbm, ⟨33, _⟩ => ⟨S64x8192, .i1⟩
  | .hbm, ⟨34, _⟩ => ⟨S_, .f32⟩
  | .hbm, ⟨35, _⟩ => ⟨S64x8192, .f32⟩
  | .hbm, ⟨36, _⟩ => ⟨S64x8192, .f32⟩
  | .hbm, ⟨37, _⟩ => ⟨S64x8192, .f32⟩
  | _, _ => ⟨S64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_c_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  transposes_S8192x8192_S8192x8192_1_0 : S8192x8192.Transposes [1, 0] S8192x8192
  slices_S262144x2_S262144x1_0_0 : S262144x2.Slices ![0, 0] S262144x1
  shapeCasts_S262144x1_S262144 : S262144x1.ShapeCasts S262144
  slices_S262144x2_S262144x1_0_1 : S262144x2.Slices ![0, 1] S262144x1
  bcast_S_S8192x8192 : S_.BroadcastsInDim S8192x8192 (![] : Fin 0 → Fin S8192x8192.rank)
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  bcast_S_S64x8192 : S_.BroadcastsInDim S64x8192 (![] : Fin 0 → Fin S64x8192.rank)
  dot_S64x8192_S8192x8192_S64x8192_1_0_0_1_n_n_wf : DotDims.WF S64x8192 S8192x8192 S64x8192 [1] [0] [0] [1] [] []
  scatter_S8192x8192_S262144x2_S262144_n_01_01_1_wf : ScatterDims.WF S8192x8192 S262144x2 S262144 [] [0, 1] [0, 1] 1

variable [Facts₀]

def dot_S64x8192_S8192x8192_S64x8192_1_0_0_1_n_n : DotDims S64x8192 S8192x8192 S64x8192 where
  lhsContracting := [1]
  rhsContracting := [0]
  lhsNonContracting := [0]
  rhsNonContracting := [1]
  lhsBatch := []
  rhsBatch := []
  wf := dot_S64x8192_S8192x8192_S64x8192_1_0_0_1_n_n_wf
def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf

class Facts : Prop extends Facts₀ where

variable [Facts]
-- ==== Proof.K.Base.lean ====
import proofs.«156660_j11716670783533_1_alg».proof.Proof.Gen.Kernel.Launch
import proofs.«156660_j11716670783533_1_alg».proof.Proof.Gen.Kernel.Skeleton
import proofs.«156660_j11716670783533_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 0: the two branch conditions of the body, as functions of the grid point -/

/-- The first branch of region 0's body (reset of the accumulator) is taken exactly when the contraction-block
    coordinate is zero. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The second branch (the output block is stored) is taken exactly at the last contraction block. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-- The input windows are live at every point; the output window is idle and not written back except at the last
    contraction block, where it is live. -/
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-- The staging memrefs the pipeline passes at point `t`, and the accumulator scratch. -/
abbrev ms0_0 (t : Fin cfg0.N) : Memref sig .tc .vmem S64x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x1024 .f32 := win0_2.stage (cfg0.slots t 2)
abbrev hs0_2 (t : Fin cfg0.N) : (ms0_2 t).IsWhole := hstage0_2 ((cfg0.slots t 2).cast nbuf0_2)
abbrev scM0 : Memref sig .tc .vmem S64x1024 .f32 := Memref.whole cc0_scratch0

/-! ## Region 1: the two branch conditions of the body, as functions of the grid point -/

/-- The first branch of region 1's body (reset of the accumulator) is taken exactly when the contraction-block
    coordinate is zero. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second branch (the output block is stored) is taken exactly at the last contraction block. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-- The input windows are live at every point; the output window is idle and not written back except at the last
    contraction block, where it is live. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-- The staging memrefs the pipeline passes at point `t`, and the accumulator scratch. -/
abbrev ms1_0 (t : Fin cfg1.N) : Memref sig .tc .vmem S64x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x1024 .f32 := win1_2.stage (cfg1.slots t 2)
abbrev hs1_2 (t : Fin cfg1.N) : (ms1_2 t).IsWhole := hstage1_2 ((cfg1.slots t 2).cast nbuf1_2)
abbrev scM1 : Memref sig .tc .vmem S64x1024 .f32 := Memref.whole cc1_scratch0

/-- The one access rectangle of the 64x1024 buffers and of the 1024x1024 buffers: the whole buffer. -/
abbrev rA : Rect S64x1024 := Rect.unit (s := S64x1024) ![0, 0] S64x1024.size inb_S64x1024_S64x1024_0_0
abbrev rB : Rect S1024x1024 := Rect.unit (s := S1024x1024) ![0, 0] S1024x1024.size inb_S1024x1024_S1024x1024_0_0

theorem hz2 : (![0, 0] : Fin 2 → ℕ) = fun _ => 0 := by funext a; fin_cases a <;> rfl

/-- Every index lies in the rectangle that starts at the origin and has the buffer's own extents. -/
theorem mem_unit_zero {S : Shape} {off : Fin S.rank → Nat} (h : off = fun _ => 0) (inb : ∀ a, off a + S.size a ≤ S.size a) (y : S.Idx) :
    y ∈ (Rect.unit off S.size inb).set := by
  subst h; show y ∈ (Rect.whole S).set; rw [Rect.set_whole]; exact Finset.mem_univ y

end Cert.Kernel.Fr

end
-- ==== Proof.K.Run0A.lean ====
import proofs.«156660_j11716670783533_1_alg».proof.Proof.K.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body of region 0 on whole buffers: at the first contraction block the accumulator is reset and then receives the first product; the input blocks are left as found. -/
theorem run0_A (c : Dev nD) (i : grid0.Coords) (arg2 : Memref sig .tc .vmem S64x1024 .f32) (harg2 : arg2.IsWhole) (arg3 : Memref sig .tc .vmem S1024x1024 .f32) (harg3 : arg3.IsWhole) (arg4 : Memref sig .tc .vmem S64x1024 .f32) (harg4 : arg4.IsWhole) (arg5 : Memref sig .tc .vmem S64x1024 .f32) (harg5 : arg5.IsWhole) (hc0 : cond0_0 i) (hc1 : ¬cond0_1 i)
    (x0 : Vec F S64x1024 .f32) (x1 : Vec F S1024x1024 .f32) (xi : Vec F S64x1024 .f32) (E : Set ℕ) (K : PUnit → sProp 𝕄) :
    iprop(owns (c : Thread nD τ) arg2 fullShare x0 ∗ owns (c : Thread nD τ) arg3 fullShare x1 ∗ owns (c : Thread nD τ) arg4 fullShare xi ∗ (∃ d, owns (c : Thread nD τ) arg5 fullShare d)
        ∗ (iprop(owns (c : Thread nD τ) arg2 fullShare x0 ∗ owns (c : Thread nD τ) arg3 fullShare x1 ∗ owns (c : Thread nD τ) arg4 fullShare xi ∗ owns (c : Thread nD τ) arg5 fullShare (k0_pay2 x0 x1 (k0_pay1 (F := F)))) -∗ K ⟨⟩))
      ⊢ wp frame (wpE (defs₀ (F := F)) Variants.none c none) E (cc0__matmulT_kernel i arg2 harg2 arg3 harg3 arg4 harg4 arg5 harg5) K := by
  simp only [cc0__matmulT_kernel_eq_skeleton]; unfold cc0__matmulT_kernel_skel
  unfold owns
  iintro ⟨⟨%f0, %hf0, H0⟩, ⟨%f1, %hf1, H1⟩, ⟨%f4, %hf4, H4⟩, ⟨%ds, %fs, -, HS⟩, Hk⟩
  obtain rfl := harg2.eq_unread hf0; obtain rfl := harg3.eq_unread hf1; obtain rfl := harg4.eq_unread hf4
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H4]
  · iexists _; isplitr; · ipureintro; exact hf4
    iexact H4
  iexists _; isplitr
  swap; · iexact HS
  ipureintro
  sl_unfold_run_names
  rw [View.read_writes_eq_canon _ _ _ (fun y => ⟨_, List.mem_cons_self, mem_unit_zero (S := S64x1024) hz2 inb_S64x1024_S64x1024_0_0 y⟩), View.canon_cons_unit_zero (S := S64x1024) hz2]
  simp only [View.readAt_eq_ld, harg2.read_unread, harg3.read_unread, harg5.read_unread, View.ld_unit_zero (S := S64x1024) hz2, View.ld_unit_zero (S := S1024x1024) hz2, View.readCov_unit_zero (S := S64x1024) _ hz2]

end Cert.Kernel.Fr

end
-- ==== Proof.K.Run0B.lean ====
import proofs.«156660_j11716670783533_1_alg».proof.Proof.K.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body of region 0 on whole buffers: at an inner contraction block the accumulator receives one more product; the input blocks are left as found. -/
theorem run0_B (c : Dev nD) (i : grid0.Coords) (arg2 : Memref sig .tc .vmem S64x1024 .f32) (harg2 : arg2.IsWhole) (arg3 : Memref sig .tc .vmem S1024x1024 .f32) (harg3 : arg3.IsWhole) (arg4 : Memref sig .tc .vmem S64x1024 .f32) (harg4 : arg4.IsWhole) (arg5 : Memref sig .tc .vmem S64x1024 .f32) (harg5 : arg5.IsWhole) (hc0 : ¬cond0_0 i) (hc1 : ¬cond0_1 i)
    (x0 : Vec F S64x1024 .f32) (x1 : Vec F S1024x1024 .f32) (xi : Vec F S64x1024 .f32) (xs : Vec F S64x1024 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare xi ∗ owns (c : Thread nD τ) arg5 fullShare (k0_pay2 x0 x1 xs)) -∗ K ⟨⟩))
      ⊢ wp frame (wpE (defs₀ (F := F)) Variants.none c none) E (cc0__matmulT_kernel i arg2 harg2 arg3 harg3 arg4 harg4 arg5 harg5) K := by
  simp only [cc0__matmulT_kernel_eq_skeleton]; unfold cc0__matmulT_kernel_skel
  unfold owns
  iintro ⟨⟨%f0, %hf0, H0⟩, ⟨%f1, %hf1, H1⟩, ⟨%f4, %hf4, H4⟩, ⟨%fs, %hfs, HS⟩, Hk⟩
  obtain rfl := harg2.eq_unread hf0; obtain rfl := harg3.eq_unread hf1; obtain rfl := harg4.eq_unread hf4; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H4]
  · iexists _; isplitr; · ipureintro; exact hf4
    iexact H4
  iexists _; isplitr
  swap; · iexact HS
  ipureintro
  sl_unfold_run_names
  rw [View.read_writes_eq_canon _ _ _ (fun y => ⟨_, List.mem_cons_self, mem_unit_zero (S := S64x1024) hz2 inb_S64x1024_S64x1024_0_0 y⟩), View.canon_cons_unit_zero (S := S64x1024) hz2]
  simp only [View.readAt_eq_ld, harg2.read_unread, harg3.read_unread, harg5.read_unread, View.ld_unit_zero (S := S64x1024) hz2, View.ld_unit_zero (S := S1024x1024) hz2, View.readCov_unit_zero (S := S64x1024) _ hz2]

end Cert.Kernel.Fr

end
-- ==== Proof.K.Run0C.lean ====
import proofs.«156660_j11716670783533_1_alg».proof.Proof.K.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body of region 0 on whole buffers: at the last contraction block the accumulator receives the last product and the output block is stored; the input blocks are left as found. -/
theorem run0_C (c : Dev nD) (i : grid0.Coords) (arg2 : Memref sig .tc .vmem S64x1024 .f32) (harg2 : arg2.IsWhole) (arg3 : Memref sig .tc .vmem S1024x1024 .f32) (harg3 : arg3.IsWhole) (arg4 : Memref sig .tc .vmem S64x1024 .f32) (harg4 : arg4.IsWhole) (arg5 : Memref sig .tc .vmem S64x1024 .f32) (harg5 : arg5.IsWhole) (hc0 : ¬cond0_0 i) (hc1 : cond0_1 i)
    (x0 : Vec F S64x1024 .f32) (x1 : Vec F S1024x1024 .f32) (xs : Vec F S64x1024 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k0_pay2 x0 x1 xs) ∗ owns (c : Thread nD τ) arg5 fullShare (k0_pay2 x0 x1 xs)) -∗ K ⟨⟩))
      ⊢ wp frame (wpE (defs₀ (F := F)) Variants.none c none) E (cc0__matmulT_kernel i arg2 harg2 arg3 harg3 arg4 harg4 arg5 harg5) K := by
  simp only [cc0__matmulT_kernel_eq_skeleton]; unfold cc0__matmulT_kernel_skel
  unfold owns
  iintro ⟨⟨%f0, %hf0, H0⟩, ⟨%f1, %hf1, H1⟩, ⟨%d4, %f4, -, H4⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H4]
  · iexists _; isplitr
    swap; · iexact H4
    ipureintro
    sl_unfold_run_names
    rw [View.read_writes_eq_canon _ _ _ (fun y => ⟨_, List.mem_cons_self, mem_unit_zero (S := S64x1024) hz2 inb_S64x1024_S64x1024_0_0 y⟩), View.canon_cons_unit_zero (S := S64x1024) hz2]
    simp only [View.readAt_eq_ld, harg2.read_unread, harg3.read_unread, harg5.read_unread, View.ld_unit_zero (S := S64x1024) hz2, View.ld_unit_zero (S := S1024x1024) hz2, View.readCov_unit_zero (S := S64x1024) _ hz2]
  iexists _; isplitr
  swap; · iexact HS
  ipureintro
  sl_unfold_run_names
  rw [View.read_writes_eq_canon _ _ _ (fun y => ⟨_, List.mem_cons_self, mem_unit_zero (S := S64x1024) hz2 inb_S64x1024_S64x1024_0_0 y⟩), View.canon_cons_unit_zero (S := S64x1024) hz2]
  simp only [View.readAt_eq_ld, harg2.read_unread, harg3.read_unread, harg5.read_unread, View.ld_unit_zero (S := S64x1024) hz2, View.ld_unit_zero (S := S1024x1024) hz2, View.readCov_unit_zero (S := S64x1024) _ hz2]

end Cert.Kernel.Fr

end
-- ==== Proof.K.Frame0.lean ====
import proofs.«156660_j11716670783533_1_alg».proof.Proof.K.Run0A
import proofs.«156660_j11716670783533_1_alg».proof.Proof.K.Run0B
import proofs.«156660_j11716670783533_1_alg».proof.Proof.K.Run0C

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the unscoped buffers when the region is entered: a parameter
variable (V : (c : Dev nD) → (b : Ref sig .tc) → Buf (Elt F) ((c : Thread nD τ).loc b))

/-! # Region 0: blocks, the accumulator point by point, the proof data, the body obligation -/

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- THE ACCUMULATOR after the body at position `n`: at a first contraction block (n ≡ 0 mod 8) the product of the
    point's two input blocks added to the zero fill, otherwise added to what the point before left. -/
def acc0 (c : Dev nD) : (n : ℕ) → n < cfg0.N → Vec F S64x1024 .f32
  | 0, hn => k0_pay2 (iblk0 V c 0 ⟨0, hn⟩) (iblk0 V c 1 ⟨0, hn⟩) (k0_pay1 (F := F))
  | n + 1, hn =>
    if (n + 1) % 8 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (acc0 c n (Nat.lt_of_succ_lt hn))

theorem acc0_first (c : Dev nD) (t : Fin cfg0.N) (h0 : t.val % 8 = 0) :
    acc0 V c t.val t.isLt = k0_pay2 (iblk0 V c 0 t) (iblk0 V c 1 t) (k0_pay1 (F := F)) := by
  obtain ⟨n, hn⟩ := t
  cases n with
  | zero => rfl
  | succ n => exact if_pos h0

theorem acc0_next (c : Dev nD) (t : Fin cfg0.N) (h0 : ¬t.val % 8 = 0) :
    acc0 V c t.val t.isLt = k0_pay2 (iblk0 V c 0 t) (iblk0 V c 1 t) (acc0 V c (t.val - 1) (Nat.lt_of_le_of_lt (Nat.sub_le _ _) t.isLt)) := by
  obtain ⟨n, hn⟩ := t
  cases n with
  | zero => exact absurd (Nat.zero_mod _) h0
  | succ n => exact if_neg h0

/-- What rides through the region beside the accumulator: the core's other scoped buffers, each at some contents,
    and the generator register at some state. -/
def Rst0 (c : Dev nD) : sProp 𝕄 :=
  iprop(((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f)) ∗ (∃ r, prngReg c r))

/-- The class invariant opened: the accumulator scratch at some contents beside the rest; and closed again. -/
theorem PhiA_open0 (c : Dev nD) :
    (Pipeline.ΦA spec0 c : sProp 𝕄) ⊢ iprop((∃ d, owns (c : Thread nD τ) scM0 fullShare d) ∗ Rst0 (F := F) c) := by
  unfold Pipeline.ΦA Rst0; rw [scopedRest0_eq]; simp only [scM0, owns_whole]
  iintro ⟨⟨HS, H1, H2, H3, H4, H5, H6, H7⟩, Hg⟩
  isplitl [HS]; · iexact HS
  isplitl [H1 H2 H3 H4 H5 H6 H7]
  · isplitl [H1]; · iexact H1
    isplitl [H2]; · iexact H2
    isplitl [H3]; · iexact H3
    isplitl [H4]; · iexact H4
    isplitl [H5]; · iexact H5
    isplitl [H6]; · iexact H6
    iexact H7
  iexact Hg

theorem PhiA_close0 (c : Dev nD) :
    iprop((∃ d, owns (c : Thread nD τ) scM0 fullShare d) ∗ Rst0 (F := F) c) ⊢ (Pipeline.ΦA spec0 c : sProp 𝕄) := by
  unfold Pipeline.ΦA Rst0; rw [scopedRest0_eq]; simp only [scM0, owns_whole]
  iintro ⟨HS, ⟨H1, H2, H3, H4, H5, H6, H7⟩, Hg⟩
  isplitl [HS H1 H2 H3 H4 H5 H6 H7]
  · isplitl [HS]; · iexact HS
    isplitl [H1]; · iexact H1
    isplitl [H2]; · iexact H2
    isplitl [H3]; · iexact H3
    isplitl [H4]; · iexact H4
    isplitl [H5]; · iexact H5
    isplitl [H6]; · iexact H6
    iexact H7
  iexact Hg

/-- The region invariant before position `n`: before the first point the class invariant; afterwards the accumulator
    scratch at what the point before left in it, beside the rest. -/
def PhiS0 (c : Dev nD) : (n : ℕ) → n ≤ cfg0.N → sProp 𝕄
  | 0, _ => Pipeline.ΦA spec0 c
  | n + 1, hn => iprop(owns (c : Thread nD τ) scM0 fullShare (acc0 V c n hn) ∗ Rst0 (F := F) c)

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(owns (c : Thread nD τ) scM0 fullShare (acc0 V c n hn) ∗ Rst0 (F := F) c) := rfl
theorem PhiS0_pos (c : Dev nD) (n : ℕ) (h : n ≤ cfg0.N) (hz : n ≠ 0) :
    PhiS0 V c n h = iprop(owns (c : Thread nD τ) scM0 fullShare (acc0 V c (n - 1) (by omega)) ∗ Rst0 (F := F) c) := by
  cases n with
  | zero => exact absurd rfl hz
  | succ n => rfl

/-- The proof data of region 0 on core `c`: the arrays as the region finds them; after the body the input buffers
    at their blocks and the output buffer at the accumulator (consulted only where the block is written back); the
    invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (acc0 V c t.val t.isLt) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The point's position among the eight contraction blocks selects the case: first (the
    accumulator is reset), inner, or last (the output block is stored); the invariant hands the accumulator over at
    what the point before left and takes it back at this point's value. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 8 = 0
  · have h1 : ¬t.val % 8 = 7 := by omega
    rw [Dat.leavesExact_idle (dat0 V c) 2 t (idleAt0_2 t (fun h => h1 ((hcond0_1 t).mp h))) (noFlush0_2 t (fun h => h1 ((hcond0_1 t).mp h)))]
    rw [acc0_first V c t h0]
    by_cases hz : t.val = 0
    · rw [PhiS0_castSucc V c t, PhiS0_zero V c _ _ hz]
      iintro ⟨HΦ, Ho, ⟨%d0, H0⟩, ⟨%d1, H1⟩, ⟨%d2, H2⟩⟩
      ihave HΦ' := (PhiA_open0 (F := F) c) $$ HΦ
      icases HΦ' with ⟨HS, HR⟩
      iapply (run0_A c (grid0.coords t) _ (hs0_0 t) _ (hs0_1 t) _ (hs0_2 t) scM0 (Memref.isWhole_whole _) ((hcond0_0 t).mpr h0) (fun h => h1 ((hcond0_1 t).mp h)) (iblk0 V c 0 t) (iblk0 V c 1 t) _ Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2
    · rw [PhiS0_castSucc V c t, PhiS0_pos V c _ _ hz]
      iintro ⟨⟨HS, HR⟩, Ho, ⟨%d0, H0⟩, ⟨%d1, H1⟩, ⟨%d2, H2⟩⟩
      iapply (run0_A c (grid0.coords t) _ (hs0_0 t) _ (hs0_1 t) _ (hs0_2 t) scM0 (Memref.isWhole_whole _) ((hcond0_0 t).mpr h0) (fun h => h1 ((hcond0_1 t).mp h)) (iblk0 V c 0 t) (iblk0 V c 1 t) _ Set.univ _)
      isplitl [H0]; · iexact H0
      isplitl [H1]; · iexact H1
      isplitl [H2]; · iexact H2
      isplitl [HS]; · iexists _; iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2
  · have hz : t.val ≠ 0 := fun h => h0 (by rw [h])
    rw [acc0_next V c t h0]
    rw [PhiS0_castSucc V c t, PhiS0_pos V c _ _ hz]
    by_cases h1 : t.val % 8 = 7
    · rw [show (dat0 V c).leavesExact 2 t = owns (c : Thread nD τ) (ms0_2 t) fullShare ((dat0 V c).after 2 t) from by
        unfold Dat.leavesExact; rw [liveAt0_2 t ((hcond0_1 t).mpr h1)], after0_2, acc0_next V c t h0]
      iintro ⟨⟨HS, HR⟩, Ho, ⟨%d0, H0⟩, ⟨%d1, H1⟩, ⟨%d2, H2⟩⟩
      iapply (run0_C c (grid0.coords t) _ (hs0_0 t) _ (hs0_1 t) _ (hs0_2 t) scM0 (Memref.isWhole_whole _) (fun h => h0 ((hcond0_0 t).mp h)) ((hcond0_1 t).mpr h1) (iblk0 V c 0 t) (iblk0 V c 1 t) _ Set.univ _)
      isplitl [H0]; · iexact H0
      isplitl [H1]; · iexact H1
      isplitl [H2]; · iexists _; iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexact H2
    · rw [Dat.leavesExact_idle (dat0 V c) 2 t (idleAt0_2 t (fun h => h1 ((hcond0_1 t).mp h))) (noFlush0_2 t (fun h => h1 ((hcond0_1 t).mp h)))]
      iintro ⟨⟨HS, HR⟩, Ho, ⟨%d0, H0⟩, ⟨%d1, H1⟩, ⟨%d2, H2⟩⟩
      iapply (run0_B c (grid0.coords t) _ (hs0_0 t) _ (hs0_1 t) _ (hs0_2 t) scM0 (Memref.isWhole_whole _) (fun h => h0 ((hcond0_0 t).mp h)) (fun h => h1 ((hcond0_1 t).mp h)) (iblk0 V c 0 t) (iblk0 V c 1 t) _ _ Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2

/-- The body obligation of the region's pipeline, at every point. -/
theorem body_obligation0 (c : Dev nD) : BodyObligation (dat0 (F := F) V c) (defs₀ (F := F)) Variants.none () Set.univ := fun t => by
  rw [bigSep_W0, bigSep_W0]
  exact sound_body0 V c t

/-- After any point but the first the invariant gives the class invariant back: the accumulator's value is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht]
  refine .trans ?_ (PhiA_close0 (F := F) c)
  iintro ⟨HS, HR⟩
  isplitl [HS]; · iexists _; iexact HS
  iexact HR

theorem Phi_last0 (c : Dev nD) : (dat0 V c).Φ (Fin.last cfg0.N) ⊢ Pipeline.ΦA spec0 c :=
  Phi_out0 V c _ (by rw [Fin.val_last]; have : cfg0.N = 64 := N_0; omega)

end Cert.Kernel.Fr

end
-- ==== Proof.K.Run1A.lean ====
import proofs.«156660_j11716670783533_1_alg».proof.Proof.K.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body of region 1 on whole buffers: at the first contraction block the accumulator is reset and then receives the first product; the input blocks are left as found. -/
theorem run1_A (c : Dev nD) (i : grid1.Coords) (arg2 : Memref sig .tc .vmem S64x1024 .f32) (harg2 : arg2.IsWhole) (arg3 : Memref sig .tc .vmem S1024x1024 .f32) (harg3 : arg3.IsWhole) (arg4 : Memref sig .tc .vmem S64x1024 .f32) (harg4 : arg4.IsWhole) (arg5 : Memref sig .tc .vmem S64x1024 .f32) (harg5 : arg5.IsWhole) (hc0 : cond1_0 i) (hc1 : ¬cond1_1 i)
    (x0 : Vec F S64x1024 .f32) (x1 : Vec F S1024x1024 .f32) (xi : Vec F S64x1024 .f32) (E : Set ℕ) (K : PUnit → sProp 𝕄) :
    iprop(owns (c : Thread nD τ) arg2 fullShare x0 ∗ owns (c : Thread nD τ) arg3 fullShare x1 ∗ owns (c : Thread nD τ) arg4 fullShare xi ∗ (∃ d, owns (c : Thread nD τ) arg5 fullShare d)
        ∗ (iprop(owns (c : Thread nD τ) arg2 fullShare x0 ∗ owns (c : Thread nD τ) arg3 fullShare x1 ∗ owns (c : Thread nD τ) arg4 fullShare xi ∗ owns (c : Thread nD τ) arg5 fullShare (k1_pay2 x0 x1 (k1_pay1 (F := F)))) -∗ K ⟨⟩))
      ⊢ wp frame (wpE (defs₀ (F := F)) Variants.none c none) E (cc1__matmul_leaky_kernel i arg2 harg2 arg3 harg3 arg4 harg4 arg5 harg5) K := by
  simp only [cc1__matmul_leaky_kernel_eq_skeleton]; unfold cc1__matmul_leaky_kernel_skel
  unfold owns
  iintro ⟨⟨%f0, %hf0, H0⟩, ⟨%f1, %hf1, H1⟩, ⟨%f4, %hf4, H4⟩, ⟨%ds, %fs, -, HS⟩, Hk⟩
  obtain rfl := harg2.eq_unread hf0; obtain rfl := harg3.eq_unread hf1; obtain rfl := harg4.eq_unread hf4
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H4]
  · iexists _; isplitr; · ipureintro; exact hf4
    iexact H4
  iexists _; isplitr
  swap; · iexact HS
  ipureintro
  sl_unfold_run_names
  rw [View.read_writes_eq_canon _ _ _ (fun y => ⟨_, List.mem_cons_self, mem_unit_zero (S := S64x1024) hz2 inb_S64x1024_S64x1024_0_0 y⟩), View.canon_cons_unit_zero (S := S64x1024) hz2]
  simp only [View.readAt_eq_ld, harg2.read_unread, harg3.read_unread, harg5.read_unread, View.ld_unit_zero (S := S64x1024) hz2, View.ld_unit_zero (S := S1024x1024) hz2, View.readCov_unit_zero (S := S64x1024) _ hz2]

end Cert.Kernel.Fr

end
-- ==== Proof.K.Run1B.lean ====
import proofs.«156660_j11716670783533_1_alg».proof.Proof.K.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body of region 1 on whole buffers: at an inner contraction block the accumulator receives one more product; the input blocks are left as found. -/
theorem run1_B (c : Dev nD) (i : grid1.Coords) (arg2 : Memref sig .tc .vmem S64x1024 .f32) (harg2 : arg2.IsWhole) (arg3 : Memref sig .tc .vmem S1024x1024 .f32) (harg3 : arg3.IsWhole) (arg4 : Memref sig .tc .vmem S64x1024 .f32) (harg4 : arg4.IsWhole) (arg5 : Memref sig .tc .vmem S64x1024 .f32) (harg5 : arg5.IsWhole) (hc0 : ¬cond1_0 i) (hc1 : ¬cond1_1 i)
    (x0 : Vec F S64x1024 .f32) (x1 : Vec F S1024x1024 .f32) (xi : Vec F S64x1024 .f32) (xs : Vec F S64x1024 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare xi ∗ owns (c : Thread nD τ) arg5 fullShare (k1_pay2 x0 x1 xs)) -∗ K ⟨⟩))
      ⊢ wp frame (wpE (defs₀ (F := F)) Variants.none c none) E (cc1__matmul_leaky_kernel i arg2 harg2 arg3 harg3 arg4 harg4 arg5 harg5) K := by
  simp only [cc1__matmul_leaky_kernel_eq_skeleton]; unfold cc1__matmul_leaky_kernel_skel
  unfold owns
  iintro ⟨⟨%f0, %hf0, H0⟩, ⟨%f1, %hf1, H1⟩, ⟨%f4, %hf4, H4⟩, ⟨%fs, %hfs, HS⟩, Hk⟩
  obtain rfl := harg2.eq_unread hf0; obtain rfl := harg3.eq_unread hf1; obtain rfl := harg4.eq_unread hf4; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H4]
  · iexists _; isplitr; · ipureintro; exact hf4
    iexact H4
  iexists _; isplitr
  swap; · iexact HS
  ipureintro
  sl_unfold_run_names
  rw [View.read_writes_eq_canon _ _ _ (fun y => ⟨_, List.mem_cons_self, mem_unit_zero (S := S64x1024) hz2 inb_S64x1024_S64x1024_0_0 y⟩), View.canon_cons_unit_zero (S := S64x1024) hz2]
  simp only [View.readAt_eq_ld, harg2.read_unread, harg3.read_unread, harg5.read_unread, View.ld_unit_zero (S := S64x1024) hz2, View.ld_unit_zero (S := S1024x1024) hz2, View.readCov_unit_zero (S := S64x1024) _ hz2]

end Cert.Kernel.Fr

end
-- ==== Proof.K.Run1C.lean ====
import proofs.«156660_j11716670783533_1_alg».proof.Proof.K.Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body of region 1 on whole buffers: at the last contraction block the accumulator receives the last product and the output block is stored; the input blocks are left as found. -/
theorem run1_C (c : Dev nD) (i : grid1.Coords) (arg2 : Memref sig .tc .vmem S64x1024 .f32) (harg2 : arg2.IsWhole) (arg3 : Memref sig .tc .vmem S1024x1024 .f32) (harg3 : arg3.IsWhole) (arg4 : Memref sig .tc .vmem S64x1024 .f32) (harg4 : arg4.IsWhole) (arg5 : Memref sig .tc .vmem S64x1024 .f32) (harg5 : arg5.IsWhole) (hc0 : ¬cond1_0 i) (hc1 : cond1_1 i)
    (x0 : Vec F S64x1024 .f32) (x1 : Vec F S1024x1024 .f32) (xs : Vec F S64x1024 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k1_pay3 (k1_pay2 x0 x1 xs)) ∗ owns (c : Thread nD τ) arg5 fullShare (k1_pay2 x0 x1 xs)) -∗ K ⟨⟩))
      ⊢ wp frame (wpE (defs₀ (F := F)) Variants.none c none) E (cc1__matmul_leaky_kernel i arg2 harg2 arg3 harg3 arg4 harg4 arg5 harg5) K := by
  simp only [cc1__matmul_leaky_kernel_eq_skeleton]; unfold cc1__matmul_leaky_kernel_skel
  unfold owns
  iintro ⟨⟨%f0, %hf0, H0⟩, ⟨%f1, %hf1, H1⟩, ⟨%d4, %f4, -, H4⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H4]
  · iexists _; isplitr
    swap; · iexact H4
    ipureintro
    sl_unfold_run_names
    rw [View.read_writes_eq_canon _ _ _ (fun y => ⟨_, List.mem_cons_self, mem_unit_zero (S := S64x1024) hz2 inb_S64x1024_S64x1024_0_0 y⟩), View.canon_cons_unit_zero (S := S64x1024) hz2]
    simp only [View.readAt_eq_ld, harg2.read_unread, harg3.read_unread, harg5.read_unread, View.ld_unit_zero (S := S64x1024) hz2, View.ld_unit_zero (S := S1024x1024) hz2, View.readCov_unit_zero (S := S64x1024) _ hz2]
  iexists _; isplitr
  swap; · iexact HS
  ipureintro
  sl_unfold_run_names
  rw [View.read_writes_eq_canon _ _ _ (fun y => ⟨_, List.mem_cons_self, mem_unit_zero (S := S64x1024) hz2 inb_S64x1024_S64x1024_0_0 y⟩), View.canon_cons_unit_zero (S := S64x1024) hz2]
  simp only [View.readAt_eq_ld, harg2.read_unread, harg3.read_unread, harg5.read_unread, View.ld_unit_zero (S := S64x1024) hz2, View.ld_unit_zero (S := S1024x1024) hz2, View.readCov_unit_zero (S := S64x1024) _ hz2]

end Cert.Kernel.Fr

end
-- ==== Proof.K.Frame1.lean ====
import proofs.«156660_j11716670783533_1_alg».proof.Proof.K.Run1A
import proofs.«156660_j11716670783533_1_alg».proof.Proof.K.Run1B
import proofs.«156660_j11716670783533_1_alg».proof.Proof.K.Run1C

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the unscoped buffers when the region is entered: a parameter
variable (V : (c : Dev nD) → (b : Ref sig .tc) → Buf (Elt F) ((c : Thread nD τ).loc b))

/-! # Region 1: blocks, the accumulator point by point, the proof data, the body obligation -/

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- THE ACCUMULATOR after the body at position `n`: at a first contraction block (n ≡ 0 mod 8) the product of the
    point's two input blocks added to the zero fill, otherwise added to what the point before left. -/
def acc1 (c : Dev nD) : (n : ℕ) → n < cfg1.N → Vec F S64x1024 .f32
  | 0, hn => k1_pay2 (iblk1 V c 0 ⟨0, hn⟩) (iblk1 V c 1 ⟨0, hn⟩) (k1_pay1 (F := F))
  | n + 1, hn =>
    if (n + 1) % 8 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (acc1 c n (Nat.lt_of_succ_lt hn))

theorem acc1_first (c : Dev nD) (t : Fin cfg1.N) (h0 : t.val % 8 = 0) :
    acc1 V c t.val t.isLt = k1_pay2 (iblk1 V c 0 t) (iblk1 V c 1 t) (k1_pay1 (F := F)) := by
  obtain ⟨n, hn⟩ := t
  cases n with
  | zero => rfl
  | succ n => exact if_pos h0

theorem acc1_next (c : Dev nD) (t : Fin cfg1.N) (h0 : ¬t.val % 8 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h0
  | succ n => exact if_neg h0

/-- What rides through the region beside the accumulator: the core's other scoped buffers, each at some contents,
    and the generator register at some state. -/
def Rst1 (c : Dev nD) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f)) ∗ (∃ r, prngReg c r))

/-- The class invariant opened: the accumulator scratch at some contents beside the rest; and closed again. -/
theorem PhiA_open1 (c : Dev nD) :
    (Pipeline.ΦA spec1 c : sProp 𝕄) ⊢ iprop((∃ d, owns (c : Thread nD τ) scM1 fullShare d) ∗ Rst1 (F := F) c) := by
  unfold Pipeline.ΦA Rst1; rw [scopedRest1_eq]; simp only [scM1, owns_whole]
  iintro ⟨⟨H1, H2, H3, H4, H5, H6, H7, HS⟩, Hg⟩
  isplitl [HS]; · iexact HS
  isplitl [H1 H2 H3 H4 H5 H6 H7]
  · isplitl [H1]; · iexact H1
    isplitl [H2]; · iexact H2
    isplitl [H3]; · iexact H3
    isplitl [H4]; · iexact H4
    isplitl [H5]; · iexact H5
    isplitl [H6]; · iexact H6
    iexact H7
  iexact Hg

theorem PhiA_close1 (c : Dev nD) :
    iprop((∃ d, owns (c : Thread nD τ) scM1 fullShare d) ∗ Rst1 (F := F) c) ⊢ (Pipeline.ΦA spec1 c : sProp 𝕄) := by
  unfold Pipeline.ΦA Rst1; rw [scopedRest1_eq]; simp only [scM1, owns_whole]
  iintro ⟨HS, ⟨H1, H2, H3, H4, H5, H6, H7⟩, Hg⟩
  isplitl [HS H1 H2 H3 H4 H5 H6 H7]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  iexact Hg

/-- The region invariant before position `n`: before the first point the class invariant; afterwards the accumulator
    scratch at what the point before left in it, beside the rest. -/
def PhiS1 (c : Dev nD) : (n : ℕ) → n ≤ cfg1.N → sProp 𝕄
  | 0, _ => Pipeline.ΦA spec1 c
  | n + 1, hn => iprop(owns (c : Thread nD τ) scM1 fullShare (acc1 V c n hn) ∗ Rst1 (F := F) c)

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1 fullShare (acc1 V c n hn) ∗ Rst1 (F := F) c) := rfl
theorem PhiS1_pos (c : Dev nD) (n : ℕ) (h : n ≤ cfg1.N) (hz : n ≠ 0) :
    PhiS1 V c n h = iprop(owns (c : Thread nD τ) scM1 fullShare (acc1 V c (n - 1) (by omega)) ∗ Rst1 (F := F) c) := by
  cases n with
  | zero => exact absurd rfl hz
  | succ n => rfl

/-- The proof data of region 1 on core `c`: the arrays as the region finds them; after the body the input buffers
    at their blocks and the output buffer at the leaky step of the accumulator (consulted only where the block is written back); the
    invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (k1_pay3 (acc1 V c t.val t.isLt))
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (k1_pay3 (acc1 V c t.val t.isLt)) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The point's position among the eight contraction blocks selects the case: first (the
    accumulator is reset), inner, or last (the output block is stored); the invariant hands the accumulator over at
    what the point before left and takes it back at this point's value. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 8 = 0
  · have h1 : ¬t.val % 8 = 7 := by omega
    rw [Dat.leavesExact_idle (dat1 V c) 2 t (idleAt1_2 t (fun h => h1 ((hcond1_1 t).mp h))) (noFlush1_2 t (fun h => h1 ((hcond1_1 t).mp h)))]
    rw [acc1_first V c t h0]
    by_cases hz : t.val = 0
    · rw [PhiS1_castSucc V c t, PhiS1_zero V c _ _ hz]
      iintro ⟨HΦ, Ho, ⟨%d0, H0⟩, ⟨%d1, H1⟩, ⟨%d2, H2⟩⟩
      ihave HΦ' := (PhiA_open1 (F := F) c) $$ HΦ
      icases HΦ' with ⟨HS, HR⟩
      iapply (run1_A c (grid1.coords t) _ (hs1_0 t) _ (hs1_1 t) _ (hs1_2 t) scM1 (Memref.isWhole_whole _) ((hcond1_0 t).mpr h0) (fun h => h1 ((hcond1_1 t).mp h)) (iblk1 V c 0 t) (iblk1 V c 1 t) _ Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2
    · rw [PhiS1_castSucc V c t, PhiS1_pos V c _ _ hz]
      iintro ⟨⟨HS, HR⟩, Ho, ⟨%d0, H0⟩, ⟨%d1, H1⟩, ⟨%d2, H2⟩⟩
      iapply (run1_A c (grid1.coords t) _ (hs1_0 t) _ (hs1_1 t) _ (hs1_2 t) scM1 (Memref.isWhole_whole _) ((hcond1_0 t).mpr h0) (fun h => h1 ((hcond1_1 t).mp h)) (iblk1 V c 0 t) (iblk1 V c 1 t) _ Set.univ _)
      isplitl [H0]; · iexact H0
      isplitl [H1]; · iexact H1
      isplitl [H2]; · iexact H2
      isplitl [HS]; · iexists _; iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2
  · have hz : t.val ≠ 0 := fun h => h0 (by rw [h])
    rw [acc1_next V c t h0]
    rw [PhiS1_castSucc V c t, PhiS1_pos V c _ _ hz]
    by_cases h1 : t.val % 8 = 7
    · rw [show (dat1 V c).leavesExact 2 t = owns (c : Thread nD τ) (ms1_2 t) fullShare ((dat1 V c).after 2 t) from by
        unfold Dat.leavesExact; rw [liveAt1_2 t ((hcond1_1 t).mpr h1)], after1_2, acc1_next V c t h0]
      iintro ⟨⟨HS, HR⟩, Ho, ⟨%d0, H0⟩, ⟨%d1, H1⟩, ⟨%d2, H2⟩⟩
      iapply (run1_C c (grid1.coords t) _ (hs1_0 t) _ (hs1_1 t) _ (hs1_2 t) scM1 (Memref.isWhole_whole _) (fun h => h0 ((hcond1_0 t).mp h)) ((hcond1_1 t).mpr h1) (iblk1 V c 0 t) (iblk1 V c 1 t) _ Set.univ _)
      isplitl [H0]; · iexact H0
      isplitl [H1]; · iexact H1
      isplitl [H2]; · iexists _; iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexact H2
    · rw [Dat.leavesExact_idle (dat1 V c) 2 t (idleAt1_2 t (fun h => h1 ((hcond1_1 t).mp h))) (noFlush1_2 t (fun h => h1 ((hcond1_1 t).mp h)))]
      iintro ⟨⟨HS, HR⟩, Ho, ⟨%d0, H0⟩, ⟨%d1, H1⟩, ⟨%d2, H2⟩⟩
      iapply (run1_B c (grid1.coords t) _ (hs1_0 t) _ (hs1_1 t) _ (hs1_2 t) scM1 (Memref.isWhole_whole _) (fun h => h0 ((hcond1_0 t).mp h)) (fun h => h1 ((hcond1_1 t).mp h)) (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2

/-- The body obligation of the region's pipeline, at every point. -/
theorem body_obligation1 (c : Dev nD) : BodyObligation (dat1 (F := F) V c) (defs₀ (F := F)) Variants.none () Set.univ := fun t => by
  rw [bigSep_W1, bigSep_W1]
  exact sound_body1 V c t

/-- After any point but the first the invariant gives the class invariant back: the accumulator's value is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  refine .trans ?_ (PhiA_close1 (F := F) c)
  iintro ⟨HS, HR⟩
  isplitl [HS]; · iexists _; iexact HS
  iexact HR

theorem Phi_last1 (c : Dev nD) : (dat1 V c).Φ (Fin.last cfg1.N) ⊢ Pipeline.ΦA spec1 c :=
  Phi_out1 V c _ (by rw [Fin.val_last]; have : cfg1.N = 64 := N_1; omega)

end Cert.Kernel.Fr

end
-- ==== Proof.K.Main.lean ====
import proofs.«156660_j11716670783533_1_alg».proof.Proof.K.Frame0
import proofs.«156660_j11716670783533_1_alg».proof.Proof.K.Frame1
import proofs.«156660_j11716670783533_1_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: one stretch of host operations, then the two regions

The unscoped buffers' contents at the boundaries: at launch `V0 m`, after the host stretch `V1 m` (both from the
generated host-side module), after region 0 `Wa`, after region 1 `Wb`. -/

/-- The contents region 0 is entered from, read at the TensorCore's references. -/
abbrev Ea : (c : Dev nD) → (b : Ref sig .tc) → Buf (Elt F) ((c : Thread nD τ).loc b) := fun c b => V1 m c b

/-- After region 0: its arrays at what the pipeline leaves, every other buffer as entered. -/
def Wa (c : Dev nD) : Valuation τ sig (Elt F) :=
  Pipeline.withArrays spec0 c (V1 m c) fun w => (dat0 (Ea m) c).arrAt w cfg0.N
theorem Wa_arr (c : Dev nD) (w : Fin cfg0.W) :
    Wa m c (Proc.devRef .tc (Pipeline.arrRef spec0 w)) = (dat0 (Ea m) c).arrAt w cfg0.N := by
  unfold Wa; exact Pipeline.withArrays_arr spec0 launch0.win.arr_inj c _ _ w
theorem Wa_of_ne (c : Dev nD) (b : Ref sig .tc) (hb : ∀ w, Pipeline.arrRef spec0 w ≠ b) :
    Wa m c (Proc.devRef .tc b) = V1 m c (Proc.devRef .tc b) := by
  unfold Wa; exact Pipeline.withArrays_of_ne spec0 c _ _ b hb
abbrev Eb : (c : Dev nD) → (b : Ref sig .tc) → Buf (Elt F) ((c : Thread nD τ).loc b) := fun c b => Wa m c b
theorem hF0 (c : Dev nD) (w : Fin cfg0.W) : (dat0 (Ea m) c).arrAt w cfg0.N = Eb m c (Pipeline.arrRef spec0 w) :=
  (Wa_arr m c w).symm
theorem hrest0 (c : Dev nD) : ∀ b, b ∉ Finset.univ.image (Pipeline.arrRef spec0) → Eb m c b = Ea m c b :=
  fun b hb => Wa_of_ne m c b fun w e => hb (Finset.mem_image.mpr ⟨w, Finset.mem_univ _, e⟩)

/-- After region 1 likewise. -/
def Wb (c : Dev nD) : Valuation τ sig (Elt F) :=
  Pipeline.withArrays spec1 c (Wa m c) fun w => (dat1 (Eb m) c).arrAt w cfg1.N
theorem Wb_arr (c : Dev nD) (w : Fin cfg1.W) :
    Wb m c (Proc.devRef .tc (Pipeline.arrRef spec1 w)) = (dat1 (Eb m) c).arrAt w cfg1.N := by
  unfold Wb; exact Pipeline.withArrays_arr spec1 launch1.win.arr_inj c _ _ w
theorem Wb_of_ne (c : Dev nD) (b : Ref sig .tc) (hb : ∀ w, Pipeline.arrRef spec1 w ≠ b) :
    Wb m c (Proc.devRef .tc b) = Wa m c (Proc.devRef .tc b) := by
  unfold Wb; exact Pipeline.withArrays_of_ne spec1 c _ _ b hb
abbrev Ec : (c : Dev nD) → (b : Ref sig .tc) → Buf (Elt F) ((c : Thread nD τ).loc b) := fun c b => Wb m c b
theorem hF1 (c : Dev nD) (w : Fin cfg1.W) : (dat1 (Eb m) c).arrAt w cfg1.N = Ec m c (Pipeline.arrRef spec1 w) :=
  (Wb_arr m c w).symm
theorem hrest1 (c : Dev nD) : ∀ b, b ∉ Finset.univ.image (Pipeline.arrRef spec1) → Ec m c b = Eb m c b :=
  fun b hb => Wb_of_ne m c b fun w e => hb (Finset.mem_image.mpr ⟨w, Finset.mem_univ _, e⟩)

/-! The argument arrays end as launched: no host operation writes one, and a region either stages it through an
    input window or does not touch it. -/

theorem Wb_main_arg0 (c : Dev nD) : Wb m c (Proc.devRef .tc main_arg0) = m ((c : Thread nD τ).loc main_arg0) :=
  calc Wb m c (Proc.devRef .tc main_arg0)
    _ = Wa m c (Proc.devRef .tc main_arg0) := Wb_of_ne m c main_arg0 (by decide)
    _ = V1 m c (Proc.devRef .tc main_arg0) := (Wa_arr m c 0).trans (((dat0 (Ea m) c).arrAt_in 0 rfl _).trans (A_eq0 (Ea m) c 0))
    _ = V0 m c (Proc.devRef .tc main_arg0) := V1_of m c main_arg0 (by decide)
    _ = m ((c : Thread nD τ).loc main_arg0) := rfl

theorem Wb_main_arg1 (c : Dev nD) : Wb m c (Proc.devRef .tc main_arg1) = m ((c : Thread nD τ).loc main_arg1) :=
  calc Wb m c (Proc.devRef .tc main_arg1)
    _ = Wa m c (Proc.devRef .tc main_arg1) := Wb_of_ne m c main_arg1 (by decide)
    _ = V1 m c (Proc.devRef .tc main_arg1) := (Wa_arr m c 1).trans (((dat0 (Ea m) c).arrAt_in 1 rfl _).trans (A_eq0 (Ea m) c 1))
    _ = V0 m c (Proc.devRef .tc main_arg1) := V1_of m c main_arg1 (by decide)
    _ = m ((c : Thread nD τ).loc main_arg1) := rfl

theorem Wb_main_arg2 (c : Dev nD) : Wb m c (Proc.devRef .tc main_arg2) = m ((c : Thread nD τ).loc main_arg2) :=
  calc Wb m c (Proc.devRef .tc main_arg2)
    _ = Wa m c (Proc.devRef .tc main_arg2) := Wb_of_ne m c main_arg2 (by decide)
    _ = V1 m c (Proc.devRef .tc main_arg2) := Wa_of_ne m c main_arg2 (by decide)
    _ = V0 m c (Proc.devRef .tc main_arg2) := V1_of m c main_arg2 (by decide)
    _ = m ((c : Thread nD τ).loc main_arg2) := rfl

theorem Wb_main_arg3 (c : Dev nD) : Wb m c (Proc.devRef .tc main_arg3) = m ((c : Thread nD τ).loc main_arg3) :=
  calc Wb m c (Proc.devRef .tc main_arg3)
    _ = Wa m c (Proc.devRef .tc main_arg3) := Wb_of_ne m c main_arg3 (by decide)
    _ = V1 m c (Proc.devRef .tc main_arg3) := Wa_of_ne m c main_arg3 (by decide)
    _ = V0 m c (Proc.devRef .tc main_arg3) := V1_of m c main_arg3 (by decide)
    _ = m ((c : Thread nD τ).loc main_arg3) := rfl

/-- The result buffer ends at what region 1's write-backs leave. -/
theorem Wb_main_v20 (c : Dev nD) : Wb m c (Proc.devRef .tc main_v20) = (dat1 (Eb m) c).arrAt 2 cfg1.N := Wb_arr m c 2
/-- Region 1 reads the intermediate product at what region 0's write-backs leave, -/
theorem Eb_main_v19 (c : Dev nD) : Eb m c main_v19 = (dat0 (Ea m) c).arrAt 2 cfg0.N := Wa_arr m c 2
/-- and the scattered matrix as the host stretch left it. -/
theorem Eb_main_v18 (c : Dev nD) : Eb m c main_v18 = V1 m c (Proc.devRef .tc main_v18) := Wa_of_ne m c main_v18 (by decide)

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Ea m) c
  | ⟨1, _⟩ => fun c => dat1 (Eb m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (Wb m c) ∗ ∃ r, prngReg c r)

/-! ## The regions as segments -/

set_option backward.isDefEq.respectTransparency.types false in
/-- Region 0 as a segment: entered from every unscoped buffer at the contents before it, left with the region's
    arrays at what its write-backs leave and every other buffer as entered; the generator register goes into the
    region invariant and comes back; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ea m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (Wa m c) ∗ R c)
  X c := iprop(∃ r, prngReg c r)
  Y c := iprop(∃ r, prngReg c r)
  Z c := Pipeline.unscopedRest (Ix := Unit) (Name := ℕ) (U := UR sig nD τ) (Lvl := ℕ) spec0 c (Ea m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ea m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from Phi_last0 (Ea m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ea m c) (Eb m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from every unscoped buffer at the contents before it, left with the region's
    arrays at what its write-backs leave and every other buffer as entered; the generator register goes into the
    region invariant and comes back; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Eb m) c).loose
  hwaits := Pipeline.hwaits_of_owed_zero _ _ _ _ L lv 1 fun _ _ => rfl
  pre c := iprop(StableHlo.held (c : Thread nD τ) (Pipeline.ucRefs τ sig) (Wa m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Eb m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Eb m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Phi_last1 (Eb m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Eb m c) (Ec m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (V0 m)),
    .region (reg0 m),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting,
    and in every final state each unscoped buffer holds the last boundary's contents `Wb`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wb m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wb m c b)
    (hfin := fun c s' => by
      iintro ⟨⟨Hh, -⟩, HSI⟩
      unfold StableHlo.held
      imodintro
      iapply (pointsTo_read_all (Pipeline.ucRefs τ sig) (fun b => (((c : Thread nD τ)).1, b)) (Wb m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (Wb_main_arg0 m c),
     (h c _ (mem_uc main_arg1 (by decide))).trans (Wb_main_arg1 m c),
     (h c _ (mem_uc main_arg2 (by decide))).trans (Wb_main_arg2 m c),
     (h c _ (mem_uc main_arg3 (by decide))).trans (Wb_main_arg3 m c)⟩) (run_all m ρ)

/-- THE RUN WITH THE RESULT NAMED: the result buffer ends at what region 1's write-backs leave, the arguments as launched. -/
theorem run_value : θ_run defs (onTc (τ := τ) (main (F := F))) ⟨m, fun _ => 0, ρ⟩ (fun r => ∀ c : Dev nD,
      r.2.mem ((c.tc : Thread nD τ).loc main_v20) = (dat1 (Eb m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v20 (by decide))).trans (Wb_main_v20 m c),
     (h c _ (mem_uc main_arg0 (by decide))).trans (Wb_main_arg0 m c),
     (h c _ (mem_uc main_arg1 (by decide))).trans (Wb_main_arg1 m c),
     (h c _ (mem_uc main_arg2 (by decide))).trans (Wb_main_arg2 m c),
     (h c _ (mem_uc main_arg3 (by decide))).trans (Wb_main_arg3 m c)⟩) (run_all m ρ)

end Cert.Kernel.Fr

end
-- ==== Proof.KI.Base.lean ====
import proofs.«156660_j11716670783533_1_alg».proof.Proof.Gen.KernelIdeal.Launch
import proofs.«156660_j11716670783533_1_alg».proof.Proof.Gen.KernelIdeal.Skeleton
import proofs.«156660_j11716670783533_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 0: the two branch conditions of the body, as functions of the grid point -/

/-- The first branch of region 0's body (reset of the accumulator) is taken exactly when the contraction-block
    coordinate is zero. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The second branch (the output block is stored) is taken exactly at the last contraction block. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-- The input windows are live at every point; the output window is idle and not written back except at the last
    contraction block, where it is live. -/
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-- The staging memrefs the pipeline passes at point `t`, and the accumulator scratch. -/
abbrev ms0_0 (t : Fin cfg0.N) : Memref sig .tc .vmem S64x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x1024 .f32 := win0_2.stage (cfg0.slots t 2)
abbrev hs0_2 (t : Fin cfg0.N) : (ms0_2 t).IsWhole := hstage0_2 ((cfg0.slots t 2).cast nbuf0_2)
abbrev scM0 : Memref sig .tc .vmem S64x1024 .f32 := Memref.whole cc0_scratch0

/-! ## Region 1: the two branch conditions of the body, as functions of the grid point -/

/-- The first branch of region 1's body (reset of the accumulator) is taken exactly when the contraction-block
    coordinate is zero. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second branch (the output block is stored) is taken exactly at the last contraction block. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-- The input windows are live at every point; the output window is idle and not written back except at the last
    contraction block, where it is live. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-- The staging memrefs the pipeline passes at point `t`, and the accumulator scratch. -/
abbrev ms1_0 (t : Fin cfg1.N) : Memref sig .tc .vmem S64x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x1024 .f32 := win1_2.stage (cfg1.slots t 2)
abbrev hs1_2 (t : Fin cfg1.N) : (ms1_2 t).IsWhole := hstage1_2 ((cfg1.slots t 2).cast nbuf1_2)
abbrev scM1 : Memref sig .tc .vmem S64x1024 .f32 := Memref.whole cc1_scratch0

/-- The one access rectangle of the 64x1024 buffers and of the 1024x1024 buffers: the whole buffer. -/
abbrev rA : Rect S64x1024 := Rect.unit (s := S64x1024) ![0, 0] S64x1024.size inb_S64x1024_S64x1024_0_0
abbrev rB : Rect S1024x1024 := Rect.unit (s := S1024x1024) ![0, 0] S1024x1024.size inb_S1024x1024_S1024x1024_0_0

theorem hz2 : (![0, 0] : Fin 2 → ℕ) = fun _ => 0 := by funext a; fin_cases a <;> rfl

/-- Every index lies in the rectangle that starts at the origin and has the buffer's own extents. -/
theorem mem_unit_zero {S : Shape} {off : Fin S.rank → Nat} (h : off = fun _ => 0) (inb : ∀ a, off a + S.size a ≤ S.size a) (y : S.Idx) :
    y ∈ (Rect.unit off S.size inb).set := by
  subst h; show y ∈ (Rect.whole S).set; rw [Rect.set_whole]; exact Finset.mem_univ y

end Cert.KernelIdeal.Fr

end
-- ==== Proof.KI.Run0A.lean ====
import proofs.«156660_j11716670783533_1_alg».proof.Proof.KI.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body of region 0 on whole buffers: at the first contraction block the accumulator is reset and then receives the first product; the input blocks are left as found. -/
theorem run0_A (c : Dev nD) (i : grid0.Coords) (arg2 : Memref sig .tc .vmem S64x1024 .f32) (harg2 : arg2.IsWhole) (arg3 : Memref sig .tc .vmem S1024x1024 .f32) (harg3 : arg3.IsWhole) (arg4 : Memref sig .tc .vmem S64x1024 .f32) (harg4 : arg4.IsWhole) (arg5 : Memref sig .tc .vmem S64x1024 .f32) (harg5 : arg5.IsWhole) (hc0 : cond0_0 i) (hc1 : ¬cond0_1 i)
    (x0 : Vec F S64x1024 .f32) (x1 : Vec F S1024x1024 .f32) (xi : Vec F S64x1024 .f32) (E : Set ℕ) (K : PUnit → sProp 𝕄) :
    iprop(owns (c : Thread nD τ) arg2 fullShare x0 ∗ owns (c : Thread nD τ) arg3 fullShare x1 ∗ owns (c : Thread nD τ) arg4 fullShare xi ∗ (∃ d, owns (c : Thread nD τ) arg5 fullShare d)
        ∗ (iprop(owns (c : Thread nD τ) arg2 fullShare x0 ∗ owns (c : Thread nD τ) arg3 fullShare x1 ∗ owns (c : Thread nD τ) arg4 fullShare xi ∗ owns (c : Thread nD τ) arg5 fullShare (k0_pay2 x0 x1 (k0_pay1 (F := F)))) -∗ K ⟨⟩))
      ⊢ wp frame (wpE (defs₀ (F := F)) Variants.none c none) E (cc0__matmulT_kernel i arg2 harg2 arg3 harg3 arg4 harg4 arg5 harg5) K := by
  simp only [cc0__matmulT_kernel_eq_skeleton]; unfold cc0__matmulT_kernel_skel
  unfold owns
  iintro ⟨⟨%f0, %hf0, H0⟩, ⟨%f1, %hf1, H1⟩, ⟨%f4, %hf4, H4⟩, ⟨%ds, %fs, -, HS⟩, Hk⟩
  obtain rfl := harg2.eq_unread hf0; obtain rfl := harg3.eq_unread hf1; obtain rfl := harg4.eq_unread hf4
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H4]
  · iexists _; isplitr; · ipureintro; exact hf4
    iexact H4
  iexists _; isplitr
  swap; · iexact HS
  ipureintro
  sl_unfold_run_names
  rw [View.read_writes_eq_canon _ _ _ (fun y => ⟨_, List.mem_cons_self, mem_unit_zero (S := S64x1024) hz2 inb_S64x1024_S64x1024_0_0 y⟩), View.canon_cons_unit_zero (S := S64x1024) hz2]
  simp only [View.readAt_eq_ld, harg2.read_unread, harg3.read_unread, harg5.read_unread, View.ld_unit_zero (S := S64x1024) hz2, View.ld_unit_zero (S := S1024x1024) hz2, View.readCov_unit_zero (S := S64x1024) _ hz2]

end Cert.KernelIdeal.Fr

end
-- ==== Proof.KI.Run0B.lean ====
import proofs.«156660_j11716670783533_1_alg».proof.Proof.KI.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body of region 0 on whole buffers: at an inner contraction block the accumulator receives one more product; the input blocks are left as found. -/
theorem run0_B (c : Dev nD) (i : grid0.Coords) (arg2 : Memref sig .tc .vmem S64x1024 .f32) (harg2 : arg2.IsWhole) (arg3 : Memref sig .tc .vmem S1024x1024 .f32) (harg3 : arg3.IsWhole) (arg4 : Memref sig .tc .vmem S64x1024 .f32) (harg4 : arg4.IsWhole) (arg5 : Memref sig .tc .vmem S64x1024 .f32) (harg5 : arg5.IsWhole) (hc0 : ¬cond0_0 i) (hc1 : ¬cond0_1 i)
    (x0 : Vec F S64x1024 .f32) (x1 : Vec F S1024x1024 .f32) (xi : Vec F S64x1024 .f32) (xs : Vec F S64x1024 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare xi ∗ owns (c : Thread nD τ) arg5 fullShare (k0_pay2 x0 x1 xs)) -∗ K ⟨⟩))
      ⊢ wp frame (wpE (defs₀ (F := F)) Variants.none c none) E (cc0__matmulT_kernel i arg2 harg2 arg3 harg3 arg4 harg4 arg5 harg5) K := by
  simp only [cc0__matmulT_kernel_eq_skeleton]; unfold cc0__matmulT_kernel_skel
  unfold owns
  iintro ⟨⟨%f0, %hf0, H0⟩, ⟨%f1, %hf1, H1⟩, ⟨%f4, %hf4, H4⟩, ⟨%fs, %hfs, HS⟩, Hk⟩
  obtain rfl := harg2.eq_unread hf0; obtain rfl := harg3.eq_unread hf1; obtain rfl := harg4.eq_unread hf4; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H4]
  · iexists _; isplitr; · ipureintro; exact hf4
    iexact H4
  iexists _; isplitr
  swap; · iexact HS
  ipureintro
  sl_unfold_run_names
  rw [View.read_writes_eq_canon _ _ _ (fun y => ⟨_, List.mem_cons_self, mem_unit_zero (S := S64x1024) hz2 inb_S64x1024_S64x1024_0_0 y⟩), View.canon_cons_unit_zero (S := S64x1024) hz2]
  simp only [View.readAt_eq_ld, harg2.read_unread, harg3.read_unread, harg5.read_unread, View.ld_unit_zero (S := S64x1024) hz2, View.ld_unit_zero (S := S1024x1024) hz2, View.readCov_unit_zero (S := S64x1024) _ hz2]

end Cert.KernelIdeal.Fr

end
-- ==== Proof.KI.Run0C.lean ====
import proofs.«156660_j11716670783533_1_alg».proof.Proof.KI.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body of region 0 on whole buffers: at the last contraction block the accumulator receives the last product and the output block is stored; the input blocks are left as found. -/
theorem run0_C (c : Dev nD) (i : grid0.Coords) (arg2 : Memref sig .tc .vmem S64x1024 .f32) (harg2 : arg2.IsWhole) (arg3 : Memref sig .tc .vmem S1024x1024 .f32) (harg3 : arg3.IsWhole) (arg4 : Memref sig .tc .vmem S64x1024 .f32) (harg4 : arg4.IsWhole) (arg5 : Memref sig .tc .vmem S64x1024 .f32) (harg5 : arg5.IsWhole) (hc0 : ¬cond0_0 i) (hc1 : cond0_1 i)
    (x0 : Vec F S64x1024 .f32) (x1 : Vec F S1024x1024 .f32) (xs : Vec F S64x1024 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k0_pay2 x0 x1 xs) ∗ owns (c : Thread nD τ) arg5 fullShare (k0_pay2 x0 x1 xs)) -∗ K ⟨⟩))
      ⊢ wp frame (wpE (defs₀ (F := F)) Variants.none c none) E (cc0__matmulT_kernel i arg2 harg2 arg3 harg3 arg4 harg4 arg5 harg5) K := by
  simp only [cc0__matmulT_kernel_eq_skeleton]; unfold cc0__matmulT_kernel_skel
  unfold owns
  iintro ⟨⟨%f0, %hf0, H0⟩, ⟨%f1, %hf1, H1⟩, ⟨%d4, %f4, -, H4⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H4]
  · iexists _; isplitr
    swap; · iexact H4
    ipureintro
    sl_unfold_run_names
    rw [View.read_writes_eq_canon _ _ _ (fun y => ⟨_, List.mem_cons_self, mem_unit_zero (S := S64x1024) hz2 inb_S64x1024_S64x1024_0_0 y⟩), View.canon_cons_unit_zero (S := S64x1024) hz2]
    simp only [View.readAt_eq_ld, harg2.read_unread, harg3.read_unread, harg5.read_unread, View.ld_unit_zero (S := S64x1024) hz2, View.ld_unit_zero (S := S1024x1024) hz2, View.readCov_unit_zero (S := S64x1024) _ hz2]
  iexists _; isplitr
  swap; · iexact HS
  ipureintro
  sl_unfold_run_names
  rw [View.read_writes_eq_canon _ _ _ (fun y => ⟨_, List.mem_cons_self, mem_unit_zero (S := S64x1024) hz2 inb_S64x1024_S64x1024_0_0 y⟩), View.canon_cons_unit_zero (S := S64x1024) hz2]
  simp only [View.readAt_eq_ld, harg2.read_unread, harg3.read_unread, harg5.read_unread, View.ld_unit_zero (S := S64x1024) hz2, View.ld_unit_zero (S := S1024x1024) hz2, View.readCov_unit_zero (S := S64x1024) _ hz2]

end Cert.KernelIdeal.Fr

end
-- ==== Proof.KI.Frame0.lean ====
import proofs.«156660_j11716670783533_1_alg».proof.Proof.KI.Run0A
import proofs.«156660_j11716670783533_1_alg».proof.Proof.KI.Run0B
import proofs.«156660_j11716670783533_1_alg».proof.Proof.KI.Run0C

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the unscoped buffers when the region is entered: a parameter
variable (V : (c : Dev nD) → (b : Ref sig .tc) → Buf (Elt F) ((c : Thread nD τ).loc b))

/-! # Region 0: blocks, the accumulator point by point, the proof data, the body obligation -/

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- THE ACCUMULATOR after the body at position `n`: at a first contraction block (n ≡ 0 mod 8) the product of the
    point's two input blocks added to the zero fill, otherwise added to what the point before left. -/
def acc0 (c : Dev nD) : (n : ℕ) → n < cfg0.N → Vec F S64x1024 .f32
  | 0, hn => k0_pay2 (iblk0 V c 0 ⟨0, hn⟩) (iblk0 V c 1 ⟨0, hn⟩) (k0_pay1 (F := F))
  | n + 1, hn =>
    if (n + 1) % 8 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (acc0 c n (Nat.lt_of_succ_lt hn))

theorem acc0_first (c : Dev nD) (t : Fin cfg0.N) (h0 : t.val % 8 = 0) :
    acc0 V c t.val t.isLt = k0_pay2 (iblk0 V c 0 t) (iblk0 V c 1 t) (k0_pay1 (F := F)) := by
  obtain ⟨n, hn⟩ := t
  cases n with
  | zero => rfl
  | succ n => exact if_pos h0

theorem acc0_next (c : Dev nD) (t : Fin cfg0.N) (h0 : ¬t.val % 8 = 0) :
    acc0 V c t.val t.isLt = k0_pay2 (iblk0 V c 0 t) (iblk0 V c 1 t) (acc0 V c (t.val - 1) (Nat.lt_of_le_of_lt (Nat.sub_le _ _) t.isLt)) := by
  obtain ⟨n, hn⟩ := t
  cases n with
  | zero => exact absurd (Nat.zero_mod _) h0
  | succ n => exact if_neg h0

/-- What rides through the region beside the accumulator: the core's other scoped buffers, each at some contents,
    and the generator register at some state. -/
def Rst0 (c : Dev nD) : sProp 𝕄 :=
  iprop(((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f)) ∗ (∃ r, prngReg c r))

/-- The class invariant opened: the accumulator scratch at some contents beside the rest; and closed again. -/
theorem PhiA_open0 (c : Dev nD) :
    (Pipeline.ΦA spec0 c : sProp 𝕄) ⊢ iprop((∃ d, owns (c : Thread nD τ) scM0 fullShare d) ∗ Rst0 (F := F) c) := by
  unfold Pipeline.ΦA Rst0; rw [scopedRest0_eq]; simp only [scM0, owns_whole]
  iintro ⟨⟨HS, H1, H2, H3, H4, H5, H6, H7⟩, Hg⟩
  isplitl [HS]; · iexact HS
  isplitl [H1 H2 H3 H4 H5 H6 H7]
  · isplitl [H1]; · iexact H1
    isplitl [H2]; · iexact H2
    isplitl [H3]; · iexact H3
    isplitl [H4]; · iexact H4
    isplitl [H5]; · iexact H5
    isplitl [H6]; · iexact H6
    iexact H7
  iexact Hg

theorem PhiA_close0 (c : Dev nD) :
    iprop((∃ d, owns (c : Thread nD τ) scM0 fullShare d) ∗ Rst0 (F := F) c) ⊢ (Pipeline.ΦA spec0 c : sProp 𝕄) := by
  unfold Pipeline.ΦA Rst0; rw [scopedRest0_eq]; simp only [scM0, owns_whole]
  iintro ⟨HS, ⟨H1, H2, H3, H4, H5, H6, H7⟩, Hg⟩
  isplitl [HS H1 H2 H3 H4 H5 H6 H7]
  · isplitl [HS]; · iexact HS
    isplitl [H1]; · iexact H1
    isplitl [H2]; · iexact H2
    isplitl [H3]; · iexact H3
    isplitl [H4]; · iexact H4
    isplitl [H5]; · iexact H5
    isplitl [H6]; · iexact H6
    iexact H7
  iexact Hg

/-- The region invariant before position `n`: before the first point the class invariant; afterwards the accumulator
    scratch at what the point before left in it, beside the rest. -/
def PhiS0 (c : Dev nD) : (n : ℕ) → n ≤ cfg0.N → sProp 𝕄
  | 0, _ => Pipeline.ΦA spec0 c
  | n + 1, hn => iprop(owns (c : Thread nD τ) scM0 fullShare (acc0 V c n hn) ∗ Rst0 (F := F) c)

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(owns (c : Thread nD τ) scM0 fullShare (acc0 V c n hn) ∗ Rst0 (F := F) c) := rfl
theorem PhiS0_pos (c : Dev nD) (n : ℕ) (h : n ≤ cfg0.N) (hz : n ≠ 0) :
    PhiS0 V c n h = iprop(owns (c : Thread nD τ) scM0 fullShare (acc0 V c (n - 1) (by omega)) ∗ Rst0 (F := F) c) := by
  cases n with
  | zero => exact absurd rfl hz
  | succ n => rfl

/-- The proof data of region 0 on core `c`: the arrays as the region finds them; after the body the input buffers
    at their blocks and the output buffer at the accumulator (consulted only where the block is written back); the
    invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (acc0 V c t.val t.isLt) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point. The point's position among the eight contraction blocks selects the case: first (the
    accumulator is reset), inner, or last (the output block is stored); the invariant hands the accumulator over at
    what the point before left and takes it back at this point's value. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 8 = 0
  · have h1 : ¬t.val % 8 = 7 := by omega
    rw [Dat.leavesExact_idle (dat0 V c) 2 t (idleAt0_2 t (fun h => h1 ((hcond0_1 t).mp h))) (noFlush0_2 t (fun h => h1 ((hcond0_1 t).mp h)))]
    rw [acc0_first V c t h0]
    by_cases hz : t.val = 0
    · rw [PhiS0_castSucc V c t, PhiS0_zero V c _ _ hz]
      iintro ⟨HΦ, Ho, ⟨%d0, H0⟩, ⟨%d1, H1⟩, ⟨%d2, H2⟩⟩
      ihave HΦ' := (PhiA_open0 (F := F) c) $$ HΦ
      icases HΦ' with ⟨HS, HR⟩
      iapply (run0_A c (grid0.coords t) _ (hs0_0 t) _ (hs0_1 t) _ (hs0_2 t) scM0 (Memref.isWhole_whole _) ((hcond0_0 t).mpr h0) (fun h => h1 ((hcond0_1 t).mp h)) (iblk0 V c 0 t) (iblk0 V c 1 t) _ Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2
    · rw [PhiS0_castSucc V c t, PhiS0_pos V c _ _ hz]
      iintro ⟨⟨HS, HR⟩, Ho, ⟨%d0, H0⟩, ⟨%d1, H1⟩, ⟨%d2, H2⟩⟩
      iapply (run0_A c (grid0.coords t) _ (hs0_0 t) _ (hs0_1 t) _ (hs0_2 t) scM0 (Memref.isWhole_whole _) ((hcond0_0 t).mpr h0) (fun h => h1 ((hcond0_1 t).mp h)) (iblk0 V c 0 t) (iblk0 V c 1 t) _ Set.univ _)
      isplitl [H0]; · iexact H0
      isplitl [H1]; · iexact H1
      isplitl [H2]; · iexact H2
      isplitl [HS]; · iexists _; iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2
  · have hz : t.val ≠ 0 := fun h => h0 (by rw [h])
    rw [acc0_next V c t h0]
    rw [PhiS0_castSucc V c t, PhiS0_pos V c _ _ hz]
    by_cases h1 : t.val % 8 = 7
    · rw [show (dat0 V c).leavesExact 2 t = owns (c : Thread nD τ) (ms0_2 t) fullShare ((dat0 V c).after 2 t) from by
        unfold Dat.leavesExact; rw [liveAt0_2 t ((hcond0_1 t).mpr h1)], after0_2, acc0_next V c t h0]
      iintro ⟨⟨HS, HR⟩, Ho, ⟨%d0, H0⟩, ⟨%d1, H1⟩, ⟨%d2, H2⟩⟩
      iapply (run0_C c (grid0.coords t) _ (hs0_0 t) _ (hs0_1 t) _ (hs0_2 t) scM0 (Memref.isWhole_whole _) (fun h => h0 ((hcond0_0 t).mp h)) ((hcond0_1 t).mpr h1) (iblk0 V c 0 t) (iblk0 V c 1 t) _ Set.univ _)
      isplitl [H0]; · iexact H0
      isplitl [H1]; · iexact H1
      isplitl [H2]; · iexists _; iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexact H2
    · rw [Dat.leavesExact_idle (dat0 V c) 2 t (idleAt0_2 t (fun h => h1 ((hcond0_1 t).mp h))) (noFlush0_2 t (fun h => h1 ((hcond0_1 t).mp h)))]
      iintro ⟨⟨HS, HR⟩, Ho, ⟨%d0, H0⟩, ⟨%d1, H1⟩, ⟨%d2, H2⟩⟩
      iapply (run0_B c (grid0.coords t) _ (hs0_0 t) _ (hs0_1 t) _ (hs0_2 t) scM0 (Memref.isWhole_whole _) (fun h => h0 ((hcond0_0 t).mp h)) (fun h => h1 ((hcond0_1 t).mp h)) (iblk0 V c 0 t) (iblk0 V c 1 t) _ _ Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2

/-- The body obligation of the region's pipeline, at every point. -/
theorem body_obligation0 (c : Dev nD) : BodyObligation (dat0 (F := F) V c) (defs₀ (F := F)) Variants.none () Set.univ := fun t => by
  rw [bigSep_W0, bigSep_W0]
  exact sound_body0 V c t

/-- After any point but the first the invariant gives the class invariant back: the accumulator's value is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht]
  refine .trans ?_ (PhiA_close0 (F := F) c)
  iintro ⟨HS, HR⟩
  isplitl [HS]; · iexists _; iexact HS
  iexact HR

theorem Phi_last0 (c : Dev nD) : (dat0 V c).Φ (Fin.last cfg0.N) ⊢ Pipeline.ΦA spec0 c :=
  Phi_out0 V c _ (by rw [Fin.val_last]; have : cfg0.N = 64 := N_0; omega)

end Cert.KernelIdeal.Fr

end
-- ==== Proof.KI.Run1A.lean ====
import proofs.«156660_j11716670783533_1_alg».proof.Proof.KI.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body of region 1 on whole buffers: at the first contraction block the accumulator is reset and then receives the first product; the input blocks are left as found. -/
theorem run1_A (c : Dev nD) (i : grid1.Coords) (arg2 : Memref sig .tc .vmem S64x1024 .f32) (harg2 : arg2.IsWhole) (arg3 : Memref sig .tc .vmem S1024x1024 .f32) (harg3 : arg3.IsWhole) (arg4 : Memref sig .tc .vmem S64x1024 .f32) (harg4 : arg4.IsWhole) (arg5 : Memref sig .tc .vmem S64x1024 .f32) (harg5 : arg5.IsWhole) (hc0 : cond1_0 i) (hc1 : ¬cond1_1 i)
    (x0 : Vec F S64x1024 .f32) (x1 : Vec F S1024x1024 .f32) (xi : Vec F S64x1024 .f32) (E : Set ℕ) (K : PUnit → sProp 𝕄) :
    iprop(owns (c : Thread nD τ) arg2 fullShare x0 ∗ owns (c : Thread nD τ) arg3 fullShare x1 ∗ owns (c : Thread nD τ) arg4 fullShare xi ∗ (∃ d, owns (c : Thread nD τ) arg5 fullShare d)
        ∗ (iprop(owns (c : Thread nD τ) arg2 fullShare x0 ∗ owns (c : Thread nD τ) arg3 fullShare x1 ∗ owns (c : Thread nD τ) arg4 fullShare xi ∗ owns (c : Thread nD τ) arg5 fullShare (k1_pay2 x0 x1 (k1_pay1 (F := F)))) -∗ K ⟨⟩))
      ⊢ wp frame (wpE (defs₀ (F := F)) Variants.none c none) E (cc1__matmul_leaky_kernel i arg2 harg2 arg3 harg3 arg4 harg4 arg5 harg5) K := by
  simp only [cc1__matmul_leaky_kernel_eq_skeleton]; unfold cc1__matmul_leaky_kernel_skel
  unfold owns
  iintro ⟨⟨%f0, %hf0, H0⟩, ⟨%f1, %hf1, H1⟩, ⟨%f4, %hf4, H4⟩, ⟨%ds, %fs, -, HS⟩, Hk⟩
  obtain rfl := harg2.eq_unread hf0; obtain rfl := harg3.eq_unread hf1; obtain rfl := harg4.eq_unread hf4
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H4]
  · iexists _; isplitr; · ipureintro; exact hf4
    iexact H4
  iexists _; isplitr
  swap; · iexact HS
  ipureintro
  sl_unfold_run_names
  rw [View.read_writes_eq_canon _ _ _ (fun y => ⟨_, List.mem_cons_self, mem_unit_zero (S := S64x1024) hz2 inb_S64x1024_S64x1024_0_0 y⟩), View.canon_cons_unit_zero (S := S64x1024) hz2]
  simp only [View.readAt_eq_ld, harg2.read_unread, harg3.read_unread, harg5.read_unread, View.ld_unit_zero (S := S64x1024) hz2, View.ld_unit_zero (S := S1024x1024) hz2, View.readCov_unit_zero (S := S64x1024) _ hz2]

end Cert.KernelIdeal.Fr

end
-- ==== Proof.KI.Run1B.lean ====
import proofs.«156660_j11716670783533_1_alg».proof.Proof.KI.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body of region 1 on whole buffers: at an inner contraction block the accumulator receives one more product; the input blocks are left as found. -/
theorem run1_B (c : Dev nD) (i : grid1.Coords) (arg2 : Memref sig .tc .vmem S64x1024 .f32) (harg2 : arg2.IsWhole) (arg3 : Memref sig .tc .vmem S1024x1024 .f32) (harg3 : arg3.IsWhole) (arg4 : Memref sig .tc .vmem S64x1024 .f32) (harg4 : arg4.IsWhole) (arg5 : Memref sig .tc .vmem S64x1024 .f32) (harg5 : arg5.IsWhole) (hc0 : ¬cond1_0 i) (hc1 : ¬cond1_1 i)
    (x0 : Vec F S64x1024 .f32) (x1 : Vec F S1024x1024 .f32) (xi : Vec F S64x1024 .f32) (xs : Vec F S64x1024 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare xi ∗ owns (c : Thread nD τ) arg5 fullShare (k1_pay2 x0 x1 xs)) -∗ K ⟨⟩))
      ⊢ wp frame (wpE (defs₀ (F := F)) Variants.none c none) E (cc1__matmul_leaky_kernel i arg2 harg2 arg3 harg3 arg4 harg4 arg5 harg5) K := by
  simp only [cc1__matmul_leaky_kernel_eq_skeleton]; unfold cc1__matmul_leaky_kernel_skel
  unfold owns
  iintro ⟨⟨%f0, %hf0, H0⟩, ⟨%f1, %hf1, H1⟩, ⟨%f4, %hf4, H4⟩, ⟨%fs, %hfs, HS⟩, Hk⟩
  obtain rfl := harg2.eq_unread hf0; obtain rfl := harg3.eq_unread hf1; obtain rfl := harg4.eq_unread hf4; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H4]
  · iexists _; isplitr; · ipureintro; exact hf4
    iexact H4
  iexists _; isplitr
  swap; · iexact HS
  ipureintro
  sl_unfold_run_names
  rw [View.read_writes_eq_canon _ _ _ (fun y => ⟨_, List.mem_cons_self, mem_unit_zero (S := S64x1024) hz2 inb_S64x1024_S64x1024_0_0 y⟩), View.canon_cons_unit_zero (S := S64x1024) hz2]
  simp only [View.readAt_eq_ld, harg2.read_unread, harg3.read_unread, harg5.read_unread, View.ld_unit_zero (S := S64x1024) hz2, View.ld_unit_zero (S := S1024x1024) hz2, View.readCov_unit_zero (S := S64x1024) _ hz2]

end Cert.KernelIdeal.Fr

end
-- ==== Proof.KI.Run1C.lean ====
import proofs.«156660_j11716670783533_1_alg».proof.Proof.KI.Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body of region 1 on whole buffers: at the last contraction block the accumulator receives the last product and the output block is stored; the input blocks are left as found. -/
theorem run1_C (c : Dev nD) (i : grid1.Coords) (arg2 : Memref sig .tc .vmem S64x1024 .f32) (harg2 : arg2.IsWhole) (arg3 : Memref sig .tc .vmem S1024x1024 .f32) (harg3 : arg3.IsWhole) (arg4 : Memref sig .tc .vmem S64x1024 .f32) (harg4 : arg4.IsWhole) (arg5 : Memref sig .tc .vmem S64x1024 .f32) (harg5 : arg5.IsWhole) (hc0 : ¬cond1_0 i) (hc1 : cond1_1 i)
    (x0 : Vec F S64x1024 .f32) (x1 : Vec F S1024x1024 .f32) (xs : Vec F S64x1024 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k1_pay3 (k1_pay2 x0 x1 xs)) ∗ owns (c : Thread nD τ) arg5 fullShare (k1_pay2 x0 x1 xs)) -∗ K ⟨⟩))
      ⊢ wp frame (wpE (defs₀ (F := F)) Variants.none c none) E (cc1__matmul_leaky_kernel i arg2 harg2 arg3 harg3 arg4 harg4 arg5 harg5) K := by
  simp only [cc1__matmul_leaky_kernel_eq_skeleton]; unfold cc1__matmul_leaky_kernel_skel
  unfold owns
  iintro ⟨⟨%f0, %hf0, H0⟩, ⟨%f1, %hf1, H1⟩, ⟨%d4, %f4, -, H4⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H4]
  · iexists _; isplitr
    swap; · iexact H4
    ipureintro
    sl_unfold_run_names
    rw [View.read_writes_eq_canon _ _ _ (fun y => ⟨_, List.mem_cons_self, mem_unit_zero (S := S64x1024) hz2 inb_S64x1024_S64x1024_0_0 y⟩), View.canon_cons_unit_zero (S := S64x1024) hz2]
    simp only [View.readAt_eq_ld, harg2.read_unread, harg3.read_unread, harg5.read_unread, View.ld_unit_zero (S := S64x1024) hz2, View.ld_unit_zero (S := S1024x1024) hz2, View.readCov_unit_zero (S := S64x1024) _ hz2]
  iexists _; isplitr
  swap; · iexact HS
  ipureintro
  sl_unfold_run_names
  rw [View.read_writes_eq_canon _ _ _ (fun y => ⟨_, List.mem_cons_self, mem_unit_zero (S := S64x1024) hz2 inb_S64x1024_S64x1024_0_0 y⟩), View.canon_cons_unit_zero (S := S64x1024) hz2]
  simp only [View.readAt_eq_ld, harg2.read_unread, harg3.read_unread, harg5.read_unread, View.ld_unit_zero (S := S64x1024) hz2, View.ld_unit_zero (S := S1024x1024) hz2, View.readCov_unit_zero (S := S64x1024) _ hz2]

end Cert.KernelIdeal.Fr

end
-- ==== Proof.KI.Frame1.lean ====
import proofs.«156660_j11716670783533_1_alg».proof.Proof.KI.Run1A
import proofs.«156660_j11716670783533_1_alg».proof.Proof.KI.Run1B
import proofs.«156660_j11716670783533_1_alg».proof.Proof.KI.Run1C

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the unscoped buffers when the region is entered: a parameter
variable (V : (c : Dev nD) → (b : Ref sig .tc) → Buf (Elt F) ((c : Thread nD τ).loc b))

/-! # Region 1: blocks, the accumulator point by point, the proof data, the body obligation -/

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- THE ACCUMULATOR after the body at position `n`: at a first contraction block (n ≡ 0 mod 8) the product of the
    point's two input blocks added to the zero fill, otherwise added to what the point before left. -/
def acc1 (c : Dev nD) : (n : ℕ) → n < cfg1.N → Vec F S64x1024 .f32
  | 0, hn => k1_pay2 (iblk1 V c 0 ⟨0, hn⟩) (iblk1 V c 1 ⟨0, hn⟩) (k1_pay1 (F := F))
  | n + 1, hn =>
    if (n + 1) % 8 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (acc1 c n (Nat.lt_of_succ_lt hn))

theorem acc1_first (c : Dev nD) (t : Fin cfg1.N) (h0 : t.val % 8 = 0) :
    acc1 V c t.val t.isLt = k1_pay2 (iblk1 V c 0 t) (iblk1 V c 1 t) (k1_pay1 (F := F)) := by
  obtain ⟨n, hn⟩ := t
  cases n with
  | zero => rfl
  | succ n => exact if_pos h0

theorem acc1_next (c : Dev nD) (t : Fin cfg1.N) (h0 : ¬t.val % 8 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h0
  | succ n => exact if_neg h0

/-- What rides through the region beside the accumulator: the core's other scoped buffers, each at some contents,
    and the generator register at some state. -/
def Rst1 (c : Dev nD) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f)) ∗ (∃ r, prngReg c r))

/-- The class invariant opened: the accumulator scratch at some contents beside the rest; and closed again. -/
theorem PhiA_open1 (c : Dev nD) :
    (Pipeline.ΦA spec1 c : sProp 𝕄) ⊢ iprop((∃ d, owns (c : Thread nD τ) scM1 fullShare d) ∗ Rst1 (F := F) c) := by
  unfold Pipeline.ΦA Rst1; rw [scopedRest1_eq]; simp only [scM1, owns_whole]
  iintro ⟨⟨H1, H2, H3, H4, H5, H6, H7, HS⟩, Hg⟩
  isplitl [HS]; · iexact HS
  isplitl [H1 H2 H3 H4 H5 H6 H7]
  · isplitl [H1]; · iexact H1
    isplitl [H2]; · iexact H2
    isplitl [H3]; · iexact H3
    isplitl [H4]; · iexact H4
    isplitl [H5]; · iexact H5
    isplitl [H6]; · iexact H6
    iexact H7
  iexact Hg

theorem PhiA_close1 (c : Dev nD) :
    iprop((∃ d, owns (c : Thread nD τ) scM1 fullShare d) ∗ Rst1 (F := F) c) ⊢ (Pipeline.ΦA spec1 c : sProp 𝕄) := by
  unfold Pipeline.ΦA Rst1; rw [scopedRest1_eq]; simp only [scM1, owns_whole]
  iintro ⟨HS, ⟨H1, H2, H3, H4, H5, H6, H7⟩, Hg⟩
  isplitl [HS H1 H2 H3 H4 H5 H6 H7]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  iexact Hg

/-- The region invariant before position `n`: before the first point the class invariant; afterwards the accumulator
    scratch at what the point before left in it, beside the rest. -/
def PhiS1 (c : Dev nD) : (n : ℕ) → n ≤ cfg1.N → sProp 𝕄
  | 0, _ => Pipeline.ΦA spec1 c
  | n + 1, hn => iprop(owns (c : Thread nD τ) scM1 fullShare (acc1 V c n hn) ∗ Rst1 (F := F) c)

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1 fullShare (acc1 V c n hn) ∗ Rst1 (F := F) c) := rfl
theorem PhiS1_pos (c : Dev nD) (n : ℕ) (h : n ≤ cfg1.N) (hz : n ≠ 0) :
    PhiS1 V c n h = iprop(owns (c : Thread nD τ) scM1 fullShare (acc1 V c (n - 1) (by omega)) ∗ Rst1 (F := F) c) := by
  cases n with
  | zero => exact absurd rfl hz
  | succ n => rfl

/-- The proof data of region 1 on core `c`: the arrays as the region finds them; after the body the input buffers
    at their blocks and the output buffer at the leaky step of the accumulator (consulted only where the block is written back); the
    invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (k1_pay3 (acc1 V c t.val t.isLt))
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (k1_pay3 (acc1 V c t.val t.isLt)) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The point's position among the eight contraction blocks selects the case: first (the
    accumulator is reset), inner, or last (the output block is stored); the invariant hands the accumulator over at
    what the point before left and takes it back at this point's value. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 8 = 0
  · have h1 : ¬t.val % 8 = 7 := by omega
    rw [Dat.leavesExact_idle (dat1 V c) 2 t (idleAt1_2 t (fun h => h1 ((hcond1_1 t).mp h))) (noFlush1_2 t (fun h => h1 ((hcond1_1 t).mp h)))]
    rw [acc1_first V c t h0]
    by_cases hz : t.val = 0
    · rw [PhiS1_castSucc V c t, PhiS1_zero V c _ _ hz]
      iintro ⟨HΦ, Ho, ⟨%d0, H0⟩, ⟨%d1, H1⟩, ⟨%d2, H2⟩⟩
      ihave HΦ' := (PhiA_open1 (F := F) c) $$ HΦ
      icases HΦ' with ⟨HS, HR⟩
      iapply (run1_A c (grid1.coords t) _ (hs1_0 t) _ (hs1_1 t) _ (hs1_2 t) scM1 (Memref.isWhole_whole _) ((hcond1_0 t).mpr h0) (fun h => h1 ((hcond1_1 t).mp h)) (iblk1 V c 0 t) (iblk1 V c 1 t) _ Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2
    · rw [PhiS1_castSucc V c t, PhiS1_pos V c _ _ hz]
      iintro ⟨⟨HS, HR⟩, Ho, ⟨%d0, H0⟩, ⟨%d1, H1⟩, ⟨%d2, H2⟩⟩
      iapply (run1_A c (grid1.coords t) _ (hs1_0 t) _ (hs1_1 t) _ (hs1_2 t) scM1 (Memref.isWhole_whole _) ((hcond1_0 t).mpr h0) (fun h => h1 ((hcond1_1 t).mp h)) (iblk1 V c 0 t) (iblk1 V c 1 t) _ Set.univ _)
      isplitl [H0]; · iexact H0
      isplitl [H1]; · iexact H1
      isplitl [H2]; · iexact H2
      isplitl [HS]; · iexists _; iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2
  · have hz : t.val ≠ 0 := fun h => h0 (by rw [h])
    rw [acc1_next V c t h0]
    rw [PhiS1_castSucc V c t, PhiS1_pos V c _ _ hz]
    by_cases h1 : t.val % 8 = 7
    · rw [show (dat1 V c).leavesExact 2 t = owns (c : Thread nD τ) (ms1_2 t) fullShare ((dat1 V c).after 2 t) from by
        unfold Dat.leavesExact; rw [liveAt1_2 t ((hcond1_1 t).mpr h1)], after1_2, acc1_next V c t h0]
      iintro ⟨⟨HS, HR⟩, Ho, ⟨%d0, H0⟩, ⟨%d1, H1⟩, ⟨%d2, H2⟩⟩
      iapply (run1_C c (grid1.coords t) _ (hs1_0 t) _ (hs1_1 t) _ (hs1_2 t) scM1 (Memref.isWhole_whole _) (fun h => h0 ((hcond1_0 t).mp h)) ((hcond1_1 t).mpr h1) (iblk1 V c 0 t) (iblk1 V c 1 t) _ Set.univ _)
      isplitl [H0]; · iexact H0
      isplitl [H1]; · iexact H1
      isplitl [H2]; · iexists _; iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexact H2
    · rw [Dat.leavesExact_idle (dat1 V c) 2 t (idleAt1_2 t (fun h => h1 ((hcond1_1 t).mp h))) (noFlush1_2 t (fun h => h1 ((hcond1_1 t).mp h)))]
      iintro ⟨⟨HS, HR⟩, Ho, ⟨%d0, H0⟩, ⟨%d1, H1⟩, ⟨%d2, H2⟩⟩
      iapply (run1_B c (grid1.coords t) _ (hs1_0 t) _ (hs1_1 t) _ (hs1_2 t) scM1 (Memref.isWhole_whole _) (fun h => h0 ((hcond1_0 t).mp h)) (fun h => h1 ((hcond1_1 t).mp h)) (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [HS HR]
      · isplitl [HS]; · iexact HS
        iexact HR
      isplitl [Ho]; · iexact Ho
      isplitl [H0]; · iexact H0
      isplitl [H1]; · iexact H1
      iexists _; iexact H2

/-- The body obligation of the region's pipeline, at every point. -/
theorem body_obligation1 (c : Dev nD) : BodyObligation (dat1 (F := F) V c) (defs₀ (F := F)) Variants.none () Set.univ := fun t => by
  rw [bigSep_W1, bigSep_W1]
  exact sound_body1 V c t

/-- After any point but the first the invariant gives the class invariant back: the accumulator's value is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  refine .trans ?_ (PhiA_close1 (F := F) c)
  iintro ⟨HS, HR⟩
  isplitl [HS]; · iexists _; iexact HS
  iexact HR

theorem Phi_last1 (c : Dev nD) : (dat1 V c).Φ (Fin.last cfg1.N) ⊢ Pipeline.ΦA spec1 c :=
  Phi_out1 V c _ (by rw [Fin.val_last]; have : cfg1.N = 64 := N_1; omega)

end Cert.KernelIdeal.Fr

end
-- ==== Proof.KI.Main.lean ====
import proofs.«156660_j11716670783533_1_alg».proof.Proof.KI.Frame0
import proofs.«156660_j11716670783533_1_alg».proof.Proof.KI.Frame1
import proofs.«156660_j11716670783533_1_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of @main: one stretch of host operations, then the two regions

The unscoped buffers' contents at the boundaries: at launch `V0 m`, after the host stretch `V1 m` (both from the
generated host-side module), after region 0 `Wa`, after region 1 `Wb`. -/

/-- The contents region 0 is entered from, read at the TensorCore's references. -/
abbrev Ea : (c : Dev nD) → (b : Ref sig .tc) → Buf (Elt F) ((c : Thread nD τ).loc b) := fun c b => V1 m c b

/-- After region 0: its arrays at what the pipeline leaves, every other buffer as entered. -/
def Wa (c : Dev nD) : Valuation τ sig (Elt F) :=
  Pipeline.withArrays spec0 c (V1 m c) fun w => (dat0 (Ea m) c).arrAt w cfg0.N
theorem Wa_arr (c : Dev nD) (w : Fin cfg0.W) :
    Wa m c (Proc.devRef .tc (Pipeline.arrRef spec0 w)) = (dat0 (Ea m) c).arrAt w cfg0.N := by
  unfold Wa; exact Pipeline.withArrays_arr spec0 launch0.win.arr_inj c _ _ w
theorem Wa_of_ne (c : Dev nD) (b : Ref sig .tc) (hb : ∀ w, Pipeline.arrRef spec0 w ≠ b) :
    Wa m c (Proc.devRef .tc b) = V1 m c (Proc.devRef .tc b) := by
  unfold Wa; exact Pipeline.withArrays_of_ne spec0 c _ _ b hb
abbrev Eb : (c : Dev nD) → (b : Ref sig .tc) → Buf (Elt F) ((c : Thread nD τ).loc b) := fun c b => Wa m c b
theorem hF0 (c : Dev nD) (w : Fin cfg0.W) : (dat0 (Ea m) c).arrAt w cfg0.N = Eb m c (Pipeline.arrRef spec0 w) :=
  (Wa_arr m c w).symm
theorem hrest0 (c : Dev nD) : ∀ b, b ∉ Finset.univ.image (Pipeline.arrRef spec0) → Eb m c b = Ea m c b :=
  fun b hb => Wa_of_ne m c b fun w e => hb (Finset.mem_image.mpr ⟨w, Finset.mem_univ _, e⟩)

/-- After region 1 likewise. -/
def Wb (c : Dev nD) : Valuation τ sig (Elt F) :=
  Pipeline.withArrays spec1 c (Wa m c) fun w => (dat1 (Eb m) c).arrAt w cfg1.N
theorem Wb_arr (c : Dev nD) (w : Fin cfg1.W) :
    Wb m c (Proc.devRef .tc (Pipeline.arrRef spec1 w)) = (dat1 (Eb m) c).arrAt w cfg1.N := by
  unfold Wb; exact Pipeline.withArrays_arr spec1 launch1.win.arr_inj c _ _ w
theorem Wb_of_ne (c : Dev nD) (b : Ref sig .tc) (hb : ∀ w, Pipeline.arrRef spec1 w ≠ b) :
    Wb m c (Proc.devRef .tc b) = Wa m c (Proc.devRef .tc b) := by
  unfold Wb; exact Pipeline.withArrays_of_ne spec1 c _ _ b hb
abbrev Ec : (c : Dev nD) → (b : Ref sig .tc) → Buf (Elt F) ((c : Thread nD τ).loc b) := fun c b => Wb m c b
theorem hF1 (c : Dev nD) (w : Fin cfg1.W) : (dat1 (Eb m) c).arrAt w cfg1.N = Ec m c (Pipeline.arrRef spec1 w) :=
  (Wb_arr m c w).symm
theorem hrest1 (c : Dev nD) : ∀ b, b ∉ Finset.univ.image (Pipeline.arrRef spec1) → Ec m c b = Eb m c b :=
  fun b hb => Wb_of_ne m c b fun w e => hb (Finset.mem_image.mpr ⟨w, Finset.mem_univ _, e⟩)

/-! The argument arrays end as launched: no host operation writes one, and a region either stages it through an
    input window or does not touch it. -/

theorem Wb_main_arg0 (c : Dev nD) : Wb m c (Proc.devRef .tc main_arg0) = m ((c : Thread nD τ).loc main_arg0) :=
  calc Wb m c (Proc.devRef .tc main_arg0)
    _ = Wa m c (Proc.devRef .tc main_arg0) := Wb_of_ne m c main_arg0 (by decide)
    _ = V1 m c (Proc.devRef .tc main_arg0) := (Wa_arr m c 0).trans (((dat0 (Ea m) c).arrAt_in 0 rfl _).trans (A_eq0 (Ea m) c 0))
    _ = V0 m c (Proc.devRef .tc main_arg0) := V1_of m c main_arg0 (by decide)
    _ = m ((c : Thread nD τ).loc main_arg0) := rfl

theorem Wb_main_arg1 (c : Dev nD) : Wb m c (Proc.devRef .tc main_arg1) = m ((c : Thread nD τ).loc main_arg1) :=
  calc Wb m c (Proc.devRef .tc main_arg1)
    _ = Wa m c (Proc.devRef .tc main_arg1) := Wb_of_ne m c main_arg1 (by decide)
    _ = V1 m c (Proc.devRef .tc main_arg1) := (Wa_arr m c 1).trans (((dat0 (Ea m) c).arrAt_in 1 rfl _).trans (A_eq0 (Ea m) c 1))
    _ = V0 m c (Proc.devRef .tc main_arg1) := V1_of m c main_arg1 (by decide)
    _ = m ((c : Thread nD τ).loc main_arg1) := rfl

theorem Wb_main_arg2 (c : Dev nD) : Wb m c (Proc.devRef .tc main_arg2) = m ((c : Thread nD τ).loc main_arg2) :=
  calc Wb m c (Proc.devRef .tc main_arg2)
    _ = Wa m c (Proc.devRef .tc main_arg2) := Wb_of_ne m c main_arg2 (by decide)
    _ = V1 m c (Proc.devRef .tc main_arg2) := Wa_of_ne m c main_arg2 (by decide)
    _ = V0 m c (Proc.devRef .tc main_arg2) := V1_of m c main_arg2 (by decide)
    _ = m ((c : Thread nD τ).loc main_arg2) := rfl

theorem Wb_main_arg3 (c : Dev nD) : Wb m c (Proc.devRef .tc main_arg3) = m ((c : Thread nD τ).loc main_arg3) :=
  calc Wb m c (Proc.devRef .tc main_arg3)
    _ = Wa m c (Proc.devRef .tc main_arg3) := Wb_of_ne m c main_arg3 (by decide)
    _ = V1 m c (Proc.devRef .tc main_arg3) := Wa_of_ne m c main_arg3 (by decide)
    _ = V0 m c (Proc.devRef .tc main_arg3) := V1_of m c main_arg3 (by decide)
    _ = m ((c : Thread nD τ).loc main_arg3) := rfl

/-- The result buffer ends at what region 1's write-backs leave. -/
theorem Wb_main_v20 (c : Dev nD) : Wb m c (Proc.devRef .tc main_v20) = (dat1 (Eb m) c).arrAt 2 cfg1.N := Wb_arr m c 2
/-- Region 1 reads the intermediate product at what region 0's write-backs leave, -/
theorem Eb_main_v19 (c : Dev nD) : Eb m c main_v19 = (dat0 (Ea m) c).arrAt 2 cfg0.N := Wa_arr m c 2
/-- and the scattered matrix as the host stretch left it. -/
theorem Eb_main_v18 (c : Dev nD) : Eb m c main_v18 = V1 m c (Proc.devRef .tc main_v18) := Wa_of_ne m c main_v18 (by decide)

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Ea m) c
  | ⟨1, _⟩ => fun c => dat1 (Eb m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (Wb m c) ∗ ∃ r, prngReg c r)

/-! ## The regions as segments -/

set_option backward.isDefEq.respectTransparency.types false in
/-- Region 0 as a segment: entered from every unscoped buffer at the contents before it, left with the region's
    arrays at what its write-backs leave and every other buffer as entered; the generator register goes into the
    region invariant and comes back; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ea m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (Wa m c) ∗ R c)
  X c := iprop(∃ r, prngReg c r)
  Y c := iprop(∃ r, prngReg c r)
  Z c := Pipeline.unscopedRest (Ix := Unit) (Name := ℕ) (U := UR sig nD τ) (Lvl := ℕ) spec0 c (Ea m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ea m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from Phi_last0 (Ea m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ea m c) (Eb m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from every unscoped buffer at the contents before it, left with the region's
    arrays at what its write-backs leave and every other buffer as entered; the generator register goes into the
    region invariant and comes back; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Eb m) c).loose
  hwaits := Pipeline.hwaits_of_owed_zero _ _ _ _ L lv 1 fun _ _ => rfl
  pre c := iprop(StableHlo.held (c : Thread nD τ) (Pipeline.ucRefs τ sig) (Wa m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Eb m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Eb m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Phi_last1 (Eb m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Eb m c) (Ec m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (V0 m)),
    .region (reg0 m),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting,
    and in every final state each unscoped buffer holds the last boundary's contents `Wb`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wb m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wb m c b)
    (hfin := fun c s' => by
      iintro ⟨⟨Hh, -⟩, HSI⟩
      unfold StableHlo.held
      imodintro
      iapply (pointsTo_read_all (Pipeline.ucRefs τ sig) (fun b => (((c : Thread nD τ)).1, b)) (Wb m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (Wb_main_arg0 m c),
     (h c _ (mem_uc main_arg1 (by decide))).trans (Wb_main_arg1 m c),
     (h c _ (mem_uc main_arg2 (by decide))).trans (Wb_main_arg2 m c),
     (h c _ (mem_uc main_arg3 (by decide))).trans (Wb_main_arg3 m c)⟩) (run_all m ρ)

/-- THE RUN WITH THE RESULT NAMED: the result buffer ends at what region 1's write-backs leave, the arguments as launched. -/
theorem run_value : θ_run defs (onTc (τ := τ) (main (F := F))) ⟨m, fun _ => 0, ρ⟩ (fun r => ∀ c : Dev nD,
      r.2.mem ((c.tc : Thread nD τ).loc main_v20) = (dat1 (Eb m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v20 (by decide))).trans (Wb_main_v20 m c),
     (h c _ (mem_uc main_arg0 (by decide))).trans (Wb_main_arg0 m c),
     (h c _ (mem_uc main_arg1 (by decide))).trans (Wb_main_arg1 m c),
     (h c _ (mem_uc main_arg2 (by decide))).trans (Wb_main_arg2 m c),
     (h c _ (mem_uc main_arg3 (by decide))).trans (Wb_main_arg3 m c)⟩) (run_all m ρ)

end Cert.KernelIdeal.Fr

end
-- ==== Proof.Spec.lean ====
/-
  The specification both programs are proved against: the function of the argument arrays that the result array
  holds, written once, over the extended reals, with no program in sight.

    hid x w b n   = ∑ k, x[b, k] · w[n, k]                  (the hidden layer: x times the transpose of w)
    out x w dm b n = leaky (∑ k, hid x w b k · dm[k, n])     (times the opaque matrix dm, then the leaky step)

  and the two facts about finite sums of extended reals that a blocked, left-nested accumulation needs: a sum over
  8192 is the sum over 8 blocks of 1024, and a left-nested running sum started at zero is the sum of its terms.
  The extended reals are a commutative additive monoid, so neither fact asks for finiteness of a term.
-/
import Idealize.ShloMosaic.PureOps.Ideal
import Idealize.ShloMosaic.PureOps.Ideal.Laws
import Idealize.ShloMosaic.Lib.ValueIdx

noncomputable section

open scoped BigOperators

namespace Cert.Spec

open Idealize.ShloMosaic

/-- The shape of the activations and of the result: 64 rows of 8192. -/
abbrev SX : Shape := ⟨2, ![64, 8192]⟩
/-- The shape of the two square matrices: 8192 by 8192. -/
abbrev SW : Shape := ⟨2, ![8192, 8192]⟩

/-- The leaky step on one extended real: `a` where `a ≥ 0`, the slope times `a` elsewhere. The zero and the slope are
    kept as the words the programs carry (the slope is never evaluated: both sides multiply by the same extended
    real, whatever it is). -/
def leaky (a : EReal) : EReal :=
  Scalar.select (Ideal.cmp .oge a (Ideal.ofBits .f32 0x00000000#32)) a (Ideal.ofBits .f32 0x3A83126F#32 * a)

/-- The leaky step in the words of the float operations at the ideal instance: a select on the ordered comparison
    `a ≥ 0` between `a` and the product of the slope constant with `a`. -/
theorem leaky_eq (a : Ideal .f32) :
    leaky a = Scalar.select (FloatOps.cmpf .oge a (FloatOps.ofBits (F := Ideal) .f32 0x00000000#32)) a
      (FloatOps.mulf (FloatOps.ofBits (F := Ideal) .f32 0x3A83126F#32) a) := rfl

/-- The hidden layer: row `b` of `x` against row `n` of `w`. -/
def hid (x : SX.Idx → EReal) (w : SW.Idx → EReal) (b : Fin 64) (n : Fin 8192) : EReal :=
  ∑ k : Fin 8192, x (ValueIdx.ix2 b k) * w (ValueIdx.ix2 n k)

/-- One element of the result: row `b` of the hidden layer against column `n` of `dm`, then the leaky step. -/
def out (x : SX.Idx → EReal) (w dm : SW.Idx → EReal) (b : Fin 64) (n : Fin 8192) : EReal :=
  leaky (∑ k : Fin 8192, hid x w b k * dm (ValueIdx.ix2 k n))

/-- The result array as a function of the three arrays. -/
def G (x : SX.Idx → EReal) (w dm : SW.Idx → EReal) : SX.Idx → EReal :=
  fun i => out x w dm (i 0) (i 1)

theorem G_apply (x : SX.Idx → EReal) (w dm : SW.Idx → EReal) (b : Fin 64) (n : Fin 8192) :
    G x w dm (ValueIdx.ix2 b n) = out x w dm b n := rfl

/-- A sum over 8192 is the sum over 8 blocks of 1024. -/
theorem sum_blocks (f : Fin 8192 → EReal) :
    ∑ k : Fin 8192, f k = ∑ kb : Fin 8, ∑ kk : Fin 1024, f ⟨kb.val * 1024 + kk.val, by omega⟩ := by
  rw [← Equiv.sum_comp (finProdFinEquiv (m := 8) (n := 1024)) f, Fintype.sum_prod_type]
  refine Finset.sum_congr rfl fun kb _ => Finset.sum_congr rfl fun kk _ => congrArg f (Fin.ext ?_)
  show kk.val + 1024 * kb.val = kb.val * 1024 + kk.val
  omega

/-- The left-nested accumulation: start from zero plus the first term, add one term per step. -/
def accum (g : ℕ → EReal) : ℕ → EReal
  | 0 => 0 + g 0
  | (n + 1) => accum g n + g (n + 1)

/-- The left-nested accumulation is the sum of its terms. -/
theorem accum_eq (g : ℕ → EReal) (n : ℕ) : accum g n = ∑ j ∈ Finset.range (n + 1), g j := by
  induction n with
  | zero => simp [accum]
  | succ n ih => rw [accum, ih, Finset.sum_range_succ (n := n + 1)]

end Cert.Spec

end
-- ==== Proof.RefValue.lean ====
/-
  The reference side of the value claim. The reference program's result array, at the ideal instance (floats are
  extended reals, operations exact), is the specification's function `Cert.Spec.G` of the argument arrays:

    result[b, n] = leaky (∑ k, (∑ j, x[b, j] · w[k, j]) · dm[k, n])

  where `dm` is the array the scatter chain writes — a function of the index and update arguments only, which
  stays opaque here: both programs build it by the same chain, so nothing about its elements is needed.
  The generated modules say what each operation writes, read at an index from its operands (transpose, the two
  contractions as sums over the contracted axis, the broadcast constants, compare, multiply, select); written
  here is the composition: the index arithmetic that identifies the operands' indices with pairs of coordinates,
  and the observation that compare-multiply-select is the leaky step.
-/
import proofs.«156660_j11716670783533_1_alg».proof.Defs
import proofs.«156660_j11716670783533_1_alg».proof.Proof.Gen.ReferenceIdeal.Run
import proofs.«156660_j11716670783533_1_alg».proof.Proof.Gen.ReferenceIdeal.Read
import proofs.«156660_j11716670783533_1_alg».proof.Proof.Spec

noncomputable section

open scoped BigOperators
open Idealize.ShloMosaic Idealize.ShloMosaic.TcCoe Idealize.SL.Sem

namespace Cert.ReferenceIdeal.RefValue

open Cert.ReferenceIdeal Cert.ReferenceIdeal.Gen Cert.ReferenceIdeal.Read Idealize.ShloMosaic.ValueIdx

/-! ## Index arithmetic: the operands' indices as pairs of coordinates -/

/-- The first contraction reads its left operand at row `b`, column `j`. -/
theorem lidx_v1 (b : Fin 64) (k j : Fin 8192) : lidx_main_v1 (ix2 b k) j = ix2 b j :=
  funext fun a => by match a with | ⟨0, _⟩ => rfl | ⟨1, _⟩ => rfl

/-- The first contraction reads the transposed matrix at `[j, k]`, which is the matrix itself at `[k, j]`. -/
theorem ridx_v1 (b : Fin 64) (k j : Fin 8192) : idx_main_v0 (ridx_main_v1 (ix2 b k) j) = ix2 k j :=
  funext fun a => by match a with | ⟨0, _⟩ => rfl | ⟨1, _⟩ => rfl

/-- The second contraction reads the hidden layer at row `b`, column `k`. -/
theorem lidx_v21 (b : Fin 64) (n k : Fin 8192) : lidx_main_v21 (ix2 b n) k = ix2 b k :=
  funext fun a => by match a with | ⟨0, _⟩ => rfl | ⟨1, _⟩ => rfl

/-- The second contraction reads the scattered matrix at row `k`, column `n`. -/
theorem ridx_v21 (b : Fin 64) (n k : Fin 8192) : ridx_main_v21 (ix2 b n) k = ix2 k n :=
  funext fun a => by match a with | ⟨0, _⟩ => rfl | ⟨1, _⟩ => rfl

/-! ## The stages read at an index -/

/-- The first contraction (against the transpose) is the specification's hidden layer. -/
theorem hid_eq (x0 : (⟨S64x8192, .f32⟩ : BufTy).Contents (Elt Ideal)) (x1 : (⟨S8192x8192, .f32⟩ : BufTy).Contents (Elt Ideal))
    (b : Fin 64) (k : Fin 8192) :
    val_main_v1 (F := Ideal) x0 x1 (ix2 b k) = Cert.Spec.hid x0 x1 b k := by
  rw [val_main_v1_apply]
  unfold Cert.Spec.hid
  refine Finset.sum_congr rfl fun j _ => ?_
  rw [val_main_v0_apply, lidx_v1, ridx_v1]

/-- The second contraction is the hidden layer against the columns of the scattered matrix. -/
theorem acc_eq (x0 : (⟨S64x8192, .f32⟩ : BufTy).Contents (Elt Ideal)) (x1 : (⟨S8192x8192, .f32⟩ : BufTy).Contents (Elt Ideal))
    (x2 : (⟨S262144x2, .i32⟩ : BufTy).Contents (Elt Ideal)) (x3 : (⟨S262144, .f32⟩ : BufTy).Contents (Elt Ideal))
    (b : Fin 64) (n : Fin 8192) :
    val_main_v21 (F := Ideal) x0 x1 x2 x3 (ix2 b n)
      = ∑ k : Fin 8192, Cert.Spec.hid x0 x1 b k * val_main_v20 (F := Ideal) x2 x3 (ix2 k n) := by
  rw [val_main_v21_apply]
  refine Finset.sum_congr rfl fun k _ => ?_
  rw [lidx_v21, ridx_v21, hid_eq]

/-- THE REFERENCE'S RESULT IS THE SPECIFICATION: index by index, compare against zero, multiply by the slope and
    select is the leaky step of the second contraction's element. -/
theorem val_eq (x0 : (⟨S64x8192, .f32⟩ : BufTy).Contents (Elt Ideal)) (x1 : (⟨S8192x8192, .f32⟩ : BufTy).Contents (Elt Ideal))
    (x2 : (⟨S262144x2, .i32⟩ : BufTy).Contents (Elt Ideal)) (x3 : (⟨S262144, .f32⟩ : BufTy).Contents (Elt Ideal)) :
    Cert.ReferenceIdeal.Read.val_main_v26 (F := Ideal) x0 x1 x2 x3
      = Cert.Spec.G x0 x1 (Cert.ReferenceIdeal.Read.val_main_v20 (F := Ideal) x2 x3) := by
  funext i
  obtain ⟨b, n, rfl⟩ : ∃ (b : Fin 64) (n : Fin 8192), i = ix2 b n := ⟨i 0, i 1, eq_ix2 i⟩
  rw [Cert.Spec.G_apply, Cert.Spec.out, Cert.Spec.leaky_eq, val_main_v26_apply, val_main_v23_apply, val_main_v25_apply,
    val_main_v22_apply, val_main_v24_apply, val_main_cst_3_apply, val_main_cst_4_apply, acc_eq]

/-! ## The run -/

/-- Every weakly fair execution of the reference terminates with its result array at the specification's function
    of the argument arrays' launch contents, and the arguments unchanged. -/
theorem run_G (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v26)
        = Cert.Spec.G (m ((c.tc : Thread nD τ).loc main_arg0)) (m ((c.tc : Thread nD τ).loc main_arg1))
            (val_main_v20 (F := Ideal) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono
    (fun _ h c => ⟨(h c).1.trans ((val_main_v26_eq m c).trans (val_eq _ _ _ _)), (h c).2⟩)
    (Cert.ReferenceIdeal.Value.run (F := Ideal) m ρ)

/-- The reference runs and leaves its arguments unchanged. -/
theorem frame_ri [hReferenceIdeal : Cert.ReferenceIdeal.Facts] [hPre_finite_inputs : Cert.Pre_finite_inputs.Facts] :
    Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.KI.Pay.lean ====
/-
  The kernel's payloads read at an index, at the ideal instance (floats are extended reals, operations exact).
  Each of the two kernel bodies works on one 64 by 1024 block of an accumulator:

    * on the first step along the contracted axis it stores the zero block;
    * on every step it stores  acc + (left block) · (right block), the product taken over the block's 1024 contraction
      indices — against the ROWS of the right block in the first body (a product with a transpose: x[b,k] · w[n,k]),
      against its COLUMNS in the second (h[b,k] · d[k,n]);
    * the second body, on the last step, stores the leaky step of the accumulator.

  At the ideal instance a narrowing format change and a shape cast to the same shape are the identity, and the matrix
  unit's product into the zero block is the plain sum of products; what is left is the index arithmetic of the two
  contractions.
-/
import proofs.«156660_j11716670783533_1_alg».proof.Proof.Gen.KernelIdeal.Skeleton
import proofs.«156660_j11716670783533_1_alg».proof.Proof.Spec
import Idealize.ShloMosaic.PureOps.Ideal.Laws
import Idealize.ShloMosaic.Lib.ValueIdx
import Idealize.ShloMosaic.Lib.Pipeline.Value

noncomputable section

open scoped BigOperators

namespace Cert.KernelIdeal.Pay

open Cert.KernelIdeal Cert.KernelIdeal.Gen Idealize.ShloMosaic Idealize.ShloMosaic.ValueIdx

/-! ## The zero block -/

/-- The block the first body stores on the first step is zero everywhere. -/
theorem pay1_0 (j : S64x1024.Idx) : k0_pay1 (F := Ideal) j = 0 := by
  unfold k0_pay1
  rw [shapeCast_self]
  exact Ideal.ofBits_zero_f32

/-- The block the second body stores on the first step is zero everywhere. -/
theorem pay1_1 (j : S64x1024.Idx) : k1_pay1 (F := Ideal) j = 0 := by
  unfold k1_pay1
  rw [shapeCast_self]
  exact Ideal.ofBits_zero_f32

/-! ## The first body's contraction: rows of the left block against ROWS of the right block -/

/-- The left operand's row is the output's row. -/
theorem lhsT_0 (i : S64x1024.Idx) (q : dot_S64x1024_S1024x1024_S64x1024_1_1_0_0_n_n.contr.Idx) :
    (dot_S64x1024_S1024x1024_S64x1024_1_1_0_0_n_n.lhsIdx i q 0).val = (i 0).val := by
  unfold DotDims.lhsIdx
  rw [dif_neg (show ¬(0 : Fin S64x1024.rank) ∈ dot_S64x1024_S1024x1024_S64x1024_1_1_0_0_n_n.lhsBatch by decide),
    dif_pos (show (0 : Fin S64x1024.rank) ∈ dot_S64x1024_S1024x1024_S64x1024_1_1_0_0_n_n.lhsNonContracting by decide)]
  rfl

/-- The right operand's row is the output's column. -/
theorem rhsT_0 (i : S64x1024.Idx) (q : dot_S64x1024_S1024x1024_S64x1024_1_1_0_0_n_n.contr.Idx) :
    (dot_S64x1024_S1024x1024_S64x1024_1_1_0_0_n_n.rhsIdx i q 0).val = (i 1).val := by
  unfold DotDims.rhsIdx
  rw [dif_neg (show ¬(0 : Fin S1024x1024.rank) ∈ dot_S64x1024_S1024x1024_S64x1024_1_1_0_0_n_n.rhsBatch by decide),
    dif_pos (show (0 : Fin S1024x1024.rank) ∈ dot_S64x1024_S1024x1024_S64x1024_1_1_0_0_n_n.rhsNonContracting by decide)]
  rfl

/-- What the first body stores on every step: the accumulator plus the block product against the right block's rows. -/
theorem pay2_0 (x0 : Vec Ideal S64x1024 .f32) (w0 : Vec Ideal S1024x1024 .f32) (a : Vec Ideal S64x1024 .f32)
    (b : Fin 64) (n : Fin 1024) :
    k0_pay2 x0 w0 a (ix2 b n) = a (ix2 b n) + ∑ k : Fin 1024, x0 (ix2 b k) * w0 (ix2 n k) := by
  unfold k0_pay2
  rw [shapeCast_self]
  refine (addf_apply _ _ _).trans (congrArg (a (ix2 b n) + ·) ?_)
  refine (Ideal.matmul_constant_zero_apply dot_S64x1024_S1024x1024_S64x1024_1_1_0_0_n_n none _ _ (ix2 b n)).trans ?_
  rw [← Equiv.sum_comp (contrEquiv1 dot_S64x1024_S1024x1024_S64x1024_1_1_0_0_n_n 1024 rfl rfl).symm]
  refine Finset.sum_congr rfl fun k _ => ?_
  have hk := contrEquiv1_symm_val dot_S64x1024_S1024x1024_S64x1024_1_1_0_0_n_n 1024 rfl rfl k
  have el : dot_S64x1024_S1024x1024_S64x1024_1_1_0_0_n_n.lhsIdx (ix2 b n)
      ((contrEquiv1 dot_S64x1024_S1024x1024_S64x1024_1_1_0_0_n_n 1024 rfl rfl).symm k) = ix2 b k :=
    funext fun a => Fin.ext (by
      match a with
      | ⟨0, _⟩ => exact lhsT_0 _ _
      | ⟨1, _⟩ => exact (dot_S64x1024_S1024x1024_S64x1024_1_1_0_0_n_n.lhsIdx_val_of_single rfl _ _).trans hk)
  have er : dot_S64x1024_S1024x1024_S64x1024_1_1_0_0_n_n.rhsIdx (ix2 b n)
      ((contrEquiv1 dot_S64x1024_S1024x1024_S64x1024_1_1_0_0_n_n 1024 rfl rfl).symm k) = ix2 n k :=
    funext fun a => Fin.ext (by
      match a with
      | ⟨0, _⟩ => exact rhsT_0 _ _
      | ⟨1, _⟩ => exact (dot_S64x1024_S1024x1024_S64x1024_1_1_0_0_n_n.rhsIdx_val_of_single rfl _ _).trans hk)
  rw [el, er]
  rfl

/-! ## The second body's contraction: rows of the left block against COLUMNS of the right block -/

/-- The left operand's row is the output's row. -/
theorem lhs_0 (i : S64x1024.Idx) (q : dot_S64x1024_S1024x1024_S64x1024_1_0_0_1_n_n.contr.Idx) :
    (dot_S64x1024_S1024x1024_S64x1024_1_0_0_1_n_n.lhsIdx i q 0).val = (i 0).val := by
  unfold DotDims.lhsIdx
  rw [dif_neg (show ¬(0 : Fin S64x1024.rank) ∈ dot_S64x1024_S1024x1024_S64x1024_1_0_0_1_n_n.lhsBatch by decide),
    dif_pos (show (0 : Fin S64x1024.rank) ∈ dot_S64x1024_S1024x1024_S64x1024_1_0_0_1_n_n.lhsNonContracting by decide)]
  rfl

/-- The right operand's column is the output's column. -/
theorem rhs_1 (i : S64x1024.Idx) (q : dot_S64x1024_S1024x1024_S64x1024_1_0_0_1_n_n.contr.Idx) :
    (dot_S64x1024_S1024x1024_S64x1024_1_0_0_1_n_n.rhsIdx i q 1).val = (i 1).val := by
  unfold DotDims.rhsIdx
  rw [dif_neg (show ¬(1 : Fin S1024x1024.rank) ∈ dot_S64x1024_S1024x1024_S64x1024_1_0_0_1_n_n.rhsBatch by decide),
    dif_pos (show (1 : Fin S1024x1024.rank) ∈ dot_S64x1024_S1024x1024_S64x1024_1_0_0_1_n_n.rhsNonContracting by decide)]
  rfl

/-- What the second body stores on every step: the accumulator plus the block product against the right block's
    columns. -/
theorem pay2_1 (h0 : Vec Ideal S64x1024 .f32) (d0 : Vec Ideal S1024x1024 .f32) (a : Vec Ideal S64x1024 .f32)
    (b : Fin 64) (n : Fin 1024) :
    k1_pay2 h0 d0 a (ix2 b n) = a (ix2 b n) + ∑ k : Fin 1024, h0 (ix2 b k) * d0 (ix2 k n) := by
  unfold k1_pay2
  rw [shapeCast_self, shapeCast_self, shapeCast_self]
  refine (addf_apply _ _ _).trans (congrArg (a (ix2 b n) + ·) ?_)
  refine (Ideal.matmul_constant_zero_apply dot_S64x1024_S1024x1024_S64x1024_1_0_0_1_n_n none _ _ (ix2 b n)).trans ?_
  rw [← Equiv.sum_comp (contrEquiv1 dot_S64x1024_S1024x1024_S64x1024_1_0_0_1_n_n 1024 rfl rfl).symm]
  refine Finset.sum_congr rfl fun k _ => ?_
  have hk := contrEquiv1_symm_val dot_S64x1024_S1024x1024_S64x1024_1_0_0_1_n_n 1024 rfl rfl k
  have el : dot_S64x1024_S1024x1024_S64x1024_1_0_0_1_n_n.lhsIdx (ix2 b n)
      ((contrEquiv1 dot_S64x1024_S1024x1024_S64x1024_1_0_0_1_n_n 1024 rfl rfl).symm k) = ix2 b k :=
    funext fun a => Fin.ext (by
      match a with
      | ⟨0, _⟩ => exact lhs_0 _ _
      | ⟨1, _⟩ => exact (dot_S64x1024_S1024x1024_S64x1024_1_0_0_1_n_n.lhsIdx_val_of_single rfl _ _).trans hk)
  have er : dot_S64x1024_S1024x1024_S64x1024_1_0_0_1_n_n.rhsIdx (ix2 b n)
      ((contrEquiv1 dot_S64x1024_S1024x1024_S64x1024_1_0_0_1_n_n 1024 rfl rfl).symm k) = ix2 k n :=
    funext fun a => Fin.ext (by
      match a with
      | ⟨0, _⟩ => exact (dot_S64x1024_S1024x1024_S64x1024_1_0_0_1_n_n.rhsIdx_val_of_single rfl _ _).trans hk
      | ⟨1, _⟩ => exact rhs_1 _ _)
  rw [el, er]
  rfl

/-! ## The leaky step -/

/-- What the second body stores on the last step: the leaky step of the accumulator, element by element — the
    comparison against the zero constant, the product with the slope constant, the select. -/
theorem pay3_1 (v : Vec Ideal S64x1024 .f32) (j : S64x1024.Idx) : k1_pay3 v j = Cert.Spec.leaky (v j) := by
  unfold k1_pay3
  exact (Cert.Spec.leaky_eq (v j)).symm

end Cert.KernelIdeal.Pay

end
-- ==== Proof.KI.Value0.lean ====
import proofs.«156660_j11716670783533_1_alg».proof.Proof.KI.Frame0
import proofs.«156660_j11716670783533_1_alg».proof.Proof.KI.Pay
import proofs.«156660_j11716670783533_1_alg».proof.Proof.Spec
import Idealize.ShloMosaic.Lib.Pipeline.Value
import Idealize.ShloMosaic.Lib.ValueIdx

set_option maxRecDepth 16384

noncomputable section

namespace Cert.KernelIdeal.Val0

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The block indices of region 0's three windows at grid point `t`: with n-block `t / 8` and k-block `t % 8`, the
    first operand's block is (0, k), the second's (n, k), the output's (0, n). -/
theorem idx0 : ∀ t : Fin cfg0.N, win0_0.index t (0 : Fin 2) = 0 ∧ win0_0.index t (1 : Fin 2) = t.val % 8
    ∧ win0_1.index t (0 : Fin 2) = t.val / 8 ∧ win0_1.index t (1 : Fin 2) = t.val % 8
    ∧ win0_2.index t (0 : Fin 2) = 0 ∧ win0_2.index t (1 : Fin 2) = t.val / 8 :=
  (by decide +kernel : ∀ t : Fin grid0.N, _)

/-- Entry (b, k) of the first operand's block at point `t` is entry (b, 1024·kb + k) of the array. -/
theorem xblk (c : Dev nD) (t : Fin cfg0.N) (kb : ℕ) (hkb : t.val % 8 = kb) (b : Fin 64) (k : Fin 1024) (hlt : kb * 1024 + k.val < 8192) :
    (iblk0 V c 0 t : Vec Ideal S64x1024 .f32) (ix2 b k) = V c main_arg0 (ix2 b ⟨kb * 1024 + k.val, hlt⟩) := by
  obtain ⟨e0, e1, -, -, -, -⟩ := idx0 t
  unfold iblk0
  rw [View.read_apply]
  show V c main_arg0 _ = V c main_arg0 _
  refine congrArg _ ?_
  funext a; apply Fin.ext
  match a with
  | ⟨0, _⟩ => show win0_0.index t (0 : Fin 2) * 64 + 1 * b.val = b.val; rw [e0]; omega
  | ⟨1, _⟩ => show win0_0.index t (1 : Fin 2) * 1024 + 1 * k.val = kb * 1024 + k.val; rw [e1, hkb]; omega

/-- Entry (n, k) of the second operand's block at point `t` is entry (1024·nb + n, 1024·kb + k) of the array. -/
theorem wblk (c : Dev nD) (t : Fin cfg0.N) (nb kb : ℕ) (hnb : t.val / 8 = nb) (hkb : t.val % 8 = kb) (n k : Fin 1024)
    (h1 : nb * 1024 + n.val < 8192) (h2 : kb * 1024 + k.val < 8192) :
    (iblk0 V c 1 t : Vec Ideal S1024x1024 .f32) (ix2 n k) = V c main_arg1 (ix2 ⟨nb * 1024 + n.val, h1⟩ ⟨kb * 1024 + k.val, h2⟩) := by
  obtain ⟨-, -, e2, e3, -, -⟩ := idx0 t
  unfold iblk0
  rw [View.read_apply]
  show V c main_arg1 _ = V c main_arg1 _
  refine congrArg _ ?_
  funext a; apply Fin.ext
  match a with
  | ⟨0, _⟩ => show win0_1.index t (0 : Fin 2) * 1024 + 1 * n.val = nb * 1024 + n.val; rw [e2, hnb]; omega
  | ⟨1, _⟩ => show win0_1.index t (1 : Fin 2) * 1024 + 1 * k.val = kb * 1024 + k.val; rw [e3, hkb]; omega

/-- The j-th block's share of entry (b, n') of x·wᵀ: the products over the 1024 contraction indices of block j. -/
def g0 (X : S64x8192.Idx → EReal) (W : S8192x8192.Idx → EReal) (b : Fin 64) (n' : Fin 8192) (j : ℕ) : EReal :=
  if hj : j < 8 then ∑ k : Fin 1024, X (ix2 b ⟨j * 1024 + k.val, by omega⟩) * W (ix2 n' ⟨j * 1024 + k.val, by omega⟩) else 0

theorem acc0_congr (c : Dev nD) {n n' : ℕ} (e : n = n') (h : n < cfg0.N) (h' : n' < cfg0.N) : acc0 V c n h = acc0 V c n' h' := by
  subst e; rfl

/-- Within one n-block the accumulator after k-block `kb` is the left-nested sum of the shares of blocks 0..kb. -/
theorem acc0_eq (c : Dev nD) (nb : ℕ) (hnb : nb < 8) (b : Fin 64) (n : Fin 1024) :
    ∀ (kb : ℕ) (hkb : kb < 8) (h : nb * 8 + kb < cfg0.N),
      acc0 V c (nb * 8 + kb) h (ix2 b n) = Cert.Spec.accum (g0 (V c main_arg0) (V c main_arg1) b ⟨nb * 1024 + n.val, by omega⟩) kb
  | 0, hkb, h => by
    have e := acc0_first V c ⟨nb * 8 + 0, h⟩ (by show (nb * 8 + 0) % 8 = 0; omega)
    rw [show acc0 V c (nb * 8 + 0) h = _ from e, Pay.pay2_0, Pay.pay1_0]
    show 0 + _ = 0 + g0 (V c main_arg0) (V c main_arg1) b _ 0
    unfold g0; rw [dif_pos (by omega)]
    refine congrArg (0 + ·) (Finset.sum_congr rfl fun k _ => ?_)
    rw [xblk V c ⟨nb * 8 + 0, h⟩ 0 (by show (nb * 8 + 0) % 8 = 0; omega) b k (by omega),
      wblk V c ⟨nb * 8 + 0, h⟩ nb 0 (by show (nb * 8 + 0) / 8 = nb; omega) (by show (nb * 8 + 0) % 8 = 0; omega) n k (by omega) (by omega)]
  | kb + 1, hkb, h => by
    have e := acc0_next V c ⟨nb * 8 + (kb + 1), h⟩ (by show ¬(nb * 8 + (kb + 1)) % 8 = 0; omega)
    rw [show acc0 V c (nb * 8 + (kb + 1)) h = _ from e, Pay.pay2_0]
    rw [acc0_congr V c (show (⟨nb * 8 + (kb + 1), h⟩ : Fin cfg0.N).val - 1 = nb * 8 + kb from by show nb * 8 + (kb + 1) - 1 = _; omega) _
      (by have := h; omega), acc0_eq c nb hnb b n kb (by omega)]
    show _ + _ = Cert.Spec.accum _ kb + g0 (V c main_arg0) (V c main_arg1) b _ (kb + 1)
    unfold g0; rw [dif_pos (show kb + 1 < 8 from hkb)]
    refine congrArg (_ + ·) (Finset.sum_congr rfl fun k _ => ?_)
    rw [xblk V c ⟨nb * 8 + (kb + 1), h⟩ (kb + 1) (by show (nb * 8 + (kb + 1)) % 8 = kb + 1; omega) b k (by omega),
      wblk V c ⟨nb * 8 + (kb + 1), h⟩ nb (kb + 1) (by show (nb * 8 + (kb + 1)) / 8 = nb; omega) (by show (nb * 8 + (kb + 1)) % 8 = kb + 1; omega) n k (by omega) (by omega)]

/-- After the last k-block the accumulator holds the full contraction: entry (b, 1024·nb + n) of x·wᵀ. -/
theorem acc0_last (c : Dev nD) (nb : ℕ) (hnb : nb < 8) (b : Fin 64) (n : Fin 1024) (h : nb * 8 + 7 < cfg0.N) :
    acc0 V c (nb * 8 + 7) h (ix2 b n) = Cert.Spec.hid (V c main_arg0) (V c main_arg1) b ⟨nb * 1024 + n.val, by omega⟩ := by
  rw [acc0_eq V c nb hnb b n 7 (by omega) h, Cert.Spec.accum_eq, Finset.sum_range]
  unfold Cert.Spec.hid
  rw [Cert.Spec.sum_blocks]
  refine Finset.sum_congr rfl fun j _ => ?_
  unfold g0; rw [dif_pos j.isLt]

/-- Region 0's output array in closed form: x·wᵀ, entry by entry. -/
def H0 (c : Dev nD) : Buf (Elt Ideal) ((c : Thread nD τ).loc main_v19) :=
  fun i => Cert.Spec.hid (V c main_arg0) (V c main_arg1) (i 0) (i 1)

/-- What a writing point writes back is its block of that array. -/
theorem flushed0_eq (c : Dev nD) (t : Fin cfg0.N) (hf : (cfg0.win 2).flush t = true) :
    (dat0 V c).flushed 2 t = ((cfg0.win 2).blk t).view.read (Elt Ideal) (H0 V c) := by
  have hN : cfg0.N = 64 := N_0
  have ht : t.val < 64 := lt_of_lt_of_eq t.isLt hN
  have h7 : t.val % 8 = 7 := (flush0_2 t).mp hf
  obtain ⟨-, -, -, -, e4, e5⟩ := idx0 t
  show (cfg0.win 2).cut (grid0.coords t) ((dat0 V c).after 2 t) = _
  rw [after0_2]
  funext j
  obtain ⟨b, n, rfl⟩ : ∃ (b : Fin 64) (n : Fin 1024), j = ix2 b n := ⟨j 0, j 1, eq_ix2 j⟩
  rw [View.read_apply]
  show acc0 V c t.val t.isLt (ix2 b n) = H0 V c (((cfg0.win 2).blk t).view.emb (ix2 b n))
  have hemb : ((cfg0.win 2).blk t).view.emb (ix2 b n) = ix2 b ⟨t.val / 8 * 1024 + n.val, by omega⟩ := by
    funext a; apply Fin.ext
    match a with
    | ⟨0, _⟩ => show win0_2.index t (0 : Fin 2) * 64 + 1 * b.val = b.val; rw [e4]; omega
    | ⟨1, _⟩ => show win0_2.index t (1 : Fin 2) * 1024 + 1 * n.val = t.val / 8 * 1024 + n.val; rw [e5]; omega
  rw [hemb]
  show _ = Cert.Spec.hid (V c main_arg0) (V c main_arg1) b ⟨t.val / 8 * 1024 + n.val, _⟩
  rw [acc0_congr V c (show t.val = t.val / 8 * 8 + 7 from by omega) t.isLt (by omega), acc0_last V c (t.val / 8) (by omega) b n]

theorem mem_blk0 (t : Fin cfg0.N) (i : S64x8192.Idx) :
    i ∈ ((cfg0.win 2).blk t).view.set ↔ ∀ a : Fin 2, win0_2.index t a * S64x1024.size a ≤ (i a).val ∧ (i a).val < win0_2.index t a * S64x1024.size a + S64x1024.size a := by
  show i ∈ ((View.whole main_v19).slice (win0_2.rect t)).set ↔ _
  rw [View.set_slice_whole, Rect.mem_set_unit]
  exact Iff.rfl

/-- The writing points' blocks cover the array, so after the region it holds x·wᵀ. -/
theorem final0 (c : Dev nD) : (dat0 V c).arrAt 2 cfg0.N = H0 V c :=
  (dat0 V c).arrAt_eq_of_cover 2 (H0 V c) (flushed0_eq V c) fun i => by
    have hN : cfg0.N = 64 := N_0
    have hi0 : (i 0).val < 64 := (i 0).isLt
    have hi1 : (i 1).val < 8192 := (i 1).isLt
    let t : Fin cfg0.N := ⟨(i 1).val / 1024 * 8 + 7, by omega⟩
    have htv : t.val = (i 1).val / 1024 * 8 + 7 := rfl
    obtain ⟨-, -, -, -, e4, e5⟩ := idx0 t
    refine ⟨t, (flush0_2 t).mpr (by omega), ?_⟩
    rw [mem_blk0]
    intro a
    match a with
    | ⟨0, _⟩ => show win0_2.index t (0 : Fin 2) * 64 ≤ (i 0).val ∧ (i 0).val < win0_2.index t (0 : Fin 2) * 64 + 64; rw [e4]; omega
    | ⟨1, _⟩ => show win0_2.index t (1 : Fin 2) * 1024 ≤ (i 1).val ∧ (i 1).val < win0_2.index t (1 : Fin 2) * 1024 + 1024; rw [e5, htv]; omega

end Cert.KernelIdeal.Val0

end
-- ==== Proof.KI.Value1.lean ====
/-
  Region 1's output array in closed form, at the ideal instance.

  The region walks an 8 by 8 grid: point t works on column block t / 8 of the output and contraction block t % 8.
  At each point the body adds, to a 64 by 1024 accumulator, the product of a 64 by 1024 block of the left array
  (columns t % 8) with a 1024 by 1024 block of the right array (rows t % 8, columns t / 8); the accumulator is
  reset at contraction block 0 and, at contraction block 7, its leaky step is written back as block t / 8 of
  the output. So over one column block the accumulator is the left-nested running sum of eight block products,
  which over the extended reals is the full contraction over all 8192 indices; the eight write-backs tile the output.
-/
import proofs.«156660_j11716670783533_1_alg».proof.Proof.KI.Frame1
import proofs.«156660_j11716670783533_1_alg».proof.Proof.KI.Pay
import proofs.«156660_j11716670783533_1_alg».proof.Proof.Spec
import Idealize.ShloMosaic.Lib.Pipeline.Value
import Idealize.ShloMosaic.Lib.ValueIdx

noncomputable section

open scoped BigOperators

namespace Cert.KernelIdeal.Val1

open Cert.KernelIdeal Cert.KernelIdeal.Gen Cert.KernelIdeal.Fr Idealize.ShloMosaic Idealize.ShloMosaic.TcCoe
  Idealize.ShloMosaic.ValueIdx Idealize.SL.Sem
open Idealize.ShloMosaic.Pipeline (Dat)

variable (V : (c : Dev nD) → (b : Ref sig .tc) → Buf (Elt Ideal) ((c : Thread nD τ).loc b))

/-- The leaky step of the full product of a 64 by 8192 array with an 8192 by 8192 array. -/
def outOf (h : S64x8192.Idx → EReal) (dm : S8192x8192.Idx → EReal) : S64x8192.Idx → EReal :=
  fun i => Cert.Spec.leaky (∑ k : Fin 8192, h (ix2 (i 0) k) * dm (ix2 k (i 1)))

/-- Region 1's output array: the leaky step of the full product of the two arrays it stages. -/
def O1 (c : Dev nD) : Buf (Elt Ideal) ((c : Thread nD τ).loc main_v20) := outOf (V c main_v19) (V c main_v18)

/-! ## The windows' block indices over the grid, and the blocks read off the arrays -/

/-- Point t: contraction block t % 8, column block t / 8. -/
theorem idx1 : ∀ t : Fin cfg1.N, win1_0.index t (0 : Fin 2) = 0 ∧ win1_0.index t (1 : Fin 2) = t.val % 8
    ∧ win1_1.index t (0 : Fin 2) = t.val % 8 ∧ win1_1.index t (1 : Fin 2) = t.val / 8
    ∧ win1_2.index t (0 : Fin 2) = 0 ∧ win1_2.index t (1 : Fin 2) = t.val / 8 :=
  (by decide +kernel : ∀ t : Fin grid1.N, _)

/-- The left block at point t is columns kb·1024 … of the left array, kb the point's contraction block. -/
theorem hblk (c : Dev nD) (t : Fin cfg1.N) (kb : ℕ) (hkb : t.val % 8 = kb) (b : Fin 64) (k : Fin 1024)
    (hlt : kb * 1024 + k.val < 8192) :
    (iblk1 V c 0 t : Vec Ideal S64x1024 .f32) (ix2 b k) = V c main_v19 (ix2 b ⟨kb * 1024 + k.val, hlt⟩) := by
  obtain ⟨e0, e1, -⟩ := idx1 t
  unfold iblk1
  rw [View.read_apply]
  show V c main_v19 _ = V c main_v19 _
  refine congrArg _ ?_
  funext a
  apply Fin.ext
  match a with
  | ⟨0, _⟩ => show win1_0.index t (0 : Fin 2) * 64 + 1 * b.val = b.val; rw [e0]; omega
  | ⟨1, _⟩ => show win1_0.index t (1 : Fin 2) * 1024 + 1 * k.val = kb * 1024 + k.val; rw [e1, hkb]; omega

/-- The right block at point t is rows kb·1024 …, columns nb·1024 … of the right array. -/
theorem dblk (c : Dev nD) (t : Fin cfg1.N) (kb nb : ℕ) (hkb : t.val % 8 = kb) (hnb : t.val / 8 = nb) (k n : Fin 1024)
    (hk : kb * 1024 + k.val < 8192) (hn : nb * 1024 + n.val < 8192) :
    (iblk1 V c 1 t : Vec Ideal S1024x1024 .f32) (ix2 k n)
      = V c main_v18 (ix2 ⟨kb * 1024 + k.val, hk⟩ ⟨nb * 1024 + n.val, hn⟩) := by
  obtain ⟨-, -, e2, e3, -⟩ := idx1 t
  unfold iblk1
  rw [View.read_apply]
  show V c main_v18 _ = V c main_v18 _
  refine congrArg _ ?_
  funext a
  apply Fin.ext
  match a with
  | ⟨0, _⟩ => show win1_1.index t (0 : Fin 2) * 1024 + 1 * k.val = kb * 1024 + k.val; rw [e2, hkb]; omega
  | ⟨1, _⟩ => show win1_1.index t (1 : Fin 2) * 1024 + 1 * n.val = nb * 1024 + n.val; rw [e3, hnb]; omega

/-! ## The accumulator in closed form -/

/-- One element of the product of a 64 by 1024 block with a 1024 by 1024 block. -/
def bsum (h0 : S64x1024.Idx → EReal) (d0 : S1024x1024.Idx → EReal) (b : Fin 64) (n : Fin 1024) : EReal :=
  ∑ k : Fin 1024, h0 (ix2 b k) * d0 (ix2 k n)

/-- One element of the full product: row b of the left array against column n' of the right array. -/
def fullsum (h : S64x8192.Idx → EReal) (dm : S8192x8192.Idx → EReal) (b : Fin 64) (n' : Fin 8192) : EReal :=
  ∑ k : Fin 8192, h (ix2 b k) * dm (ix2 k n')

/-- The j-th block product of row b of the left array with column n' of the right array (zero past the eighth). -/
def g1 (h : S64x8192.Idx → EReal) (dm : S8192x8192.Idx → EReal) (b : Fin 64) (n' : Fin 8192) (j : ℕ) : EReal :=
  if hj : j < 8 then ∑ k : Fin 1024, h (ix2 b ⟨j * 1024 + k.val, by omega⟩) * dm (ix2 ⟨j * 1024 + k.val, by omega⟩ n')
  else 0

/-- The product of the point's two blocks is the point's block product of the arrays. -/
theorem blockprod (c : Dev nD) (t : Fin cfg1.N) (kb nb : ℕ) (hkb : t.val % 8 = kb) (hnb : t.val / 8 = nb) (hkb8 : kb < 8)
    (b : Fin 64) (n : Fin 1024) (hn : nb * 1024 + n.val < 8192) :
    bsum (iblk1 V c 0 t) (iblk1 V c 1 t) b n = g1 (V c main_v19) (V c main_v18) b ⟨nb * 1024 + n.val, hn⟩ kb := by
  unfold g1 bsum
  rw [dif_pos hkb8]
  refine Finset.sum_congr rfl fun k _ => ?_
  rw [hblk V c t kb hkb b k (by have := k.isLt; omega), dblk V c t kb nb hkb hnb k n (by have := k.isLt; omega) hn]

/-- THE ACCUMULATOR after the point at contraction block kb of column block nb is the left-nested running sum of the
    block products 0 … kb: by induction on the contraction block, never by enumerating the grid. -/
theorem acc_closed (c : Dev nD) (b : Fin 64) (n : Fin 1024) :
    ∀ (kb : ℕ) (t : Fin cfg1.N) (nb : ℕ), t.val = nb * 8 + kb → kb < 8 → (hn : nb * 1024 + n.val < 8192) →
      acc1 V c t.val t.isLt (ix2 b n) = Cert.Spec.accum (g1 (V c main_v19) (V c main_v18) b ⟨nb * 1024 + n.val, hn⟩) kb
  | 0, t, nb, ht, _, hn => by
    have h0 : t.val % 8 = 0 := by omega
    rw [acc1_first V c t h0]
    refine (Pay.pay2_1 _ _ _ b n).trans ?_
    show _ + bsum (iblk1 V c 0 t) (iblk1 V c 1 t) b n = _
    rw [Pay.pay1_1, blockprod V c t 0 nb h0 (by omega) (by omega) b n hn]
    rfl
  | kb + 1, t, nb, ht, hkb, hn => by
    have hN : cfg1.N = 64 := N_1
    have hlt := t.isLt
    have h0 : ¬t.val % 8 = 0 := by omega
    rw [acc1_next V c t h0]
    refine (Pay.pay2_1 _ _ _ b n).trans ?_
    show _ + bsum (iblk1 V c 0 t) (iblk1 V c 1 t) b n = _
    have ih := acc_closed c b n kb ⟨t.val - 1, by omega⟩ nb (by show t.val - 1 = nb * 8 + kb; omega) (by omega) hn
    rw [blockprod V c t (kb + 1) nb (by omega) (by omega) hkb b n hn]
    show _ = Cert.Spec.accum _ kb + _
    exact congrArg (· + _) ih

/-- At the last contraction block the accumulator is the full contraction over the 8192 indices. -/
theorem acc_last (c : Dev nD) (t : Fin cfg1.N) (nb : ℕ) (ht : t.val = nb * 8 + 7) (b : Fin 64) (n : Fin 1024)
    (hn : nb * 1024 + n.val < 8192) :
    acc1 V c t.val t.isLt (ix2 b n) = fullsum (V c main_v19) (V c main_v18) b ⟨nb * 1024 + n.val, hn⟩ := by
  unfold fullsum
  rw [acc_closed V c b n 7 t nb ht (by omega) hn, Cert.Spec.accum_eq, Finset.sum_range, Cert.Spec.sum_blocks]
  refine Finset.sum_congr rfl fun j _ => ?_
  unfold g1
  rw [dif_pos j.isLt]

/-! ## What is written back, and the cover -/

/-- What a writing point writes back is its block of the output array: the leaky step of the accumulator at the
    last contraction block, which is the full contraction. -/
theorem flushed_eq (c : Dev nD) (t : Fin cfg1.N) (hf : (cfg1.win 2).flush t = true) :
    (dat1 V c).flushed 2 t = ((cfg1.win 2).blk t).view.read (Elt Ideal) (O1 V c) := by
  have hN : cfg1.N = 64 := N_1
  have ht : t.val < 64 := lt_of_lt_of_eq t.isLt hN
  have h7 : t.val % 8 = 7 := (flush1_2 t).mp hf
  obtain ⟨-, -, -, -, e4, e5⟩ := idx1 t
  show (cfg1.win 2).cut (grid1.coords t) ((dat1 V c).after 2 t) = _
  rw [after1_2]
  funext j
  obtain ⟨b, n, rfl⟩ : ∃ (b : Fin 64) (n : Fin 1024), j = ix2 b n := ⟨j 0, j 1, eq_ix2 j⟩
  rw [View.read_apply]
  show k1_pay3 (acc1 V c t.val t.isLt) (ix2 b n) = O1 V c (((cfg1.win 2).blk t).view.emb (ix2 b n))
  have hemb : ((cfg1.win 2).blk t).view.emb (ix2 b n) = ix2 b ⟨t.val / 8 * 1024 + n.val, by omega⟩ := by
    funext a; apply Fin.ext
    match a with
    | ⟨0, _⟩ => show win1_2.index t (0 : Fin 2) * 64 + 1 * b.val = b.val; rw [e4]; omega
    | ⟨1, _⟩ => show win1_2.index t (1 : Fin 2) * 1024 + 1 * n.val = t.val / 8 * 1024 + n.val; rw [e5]; omega
  rw [hemb, Pay.pay3_1]
  show _ = Cert.Spec.leaky (fullsum (V c main_v19) (V c main_v18) b ⟨t.val / 8 * 1024 + n.val, _⟩)
  rw [acc_last V c t (t.val / 8) (by omega) b n (by omega)]

/-- An index of the output array is in point t's block iff each coordinate is in the block's range on its axis. -/
theorem mem_blk1 (t : Fin cfg1.N) (i : S64x8192.Idx) :
    i ∈ ((cfg1.win 2).blk t).view.set ↔ ∀ a : Fin 2, win1_2.index t a * S64x1024.size a ≤ (i a).val ∧ (i a).val < win1_2.index t a * S64x1024.size a + S64x1024.size a := by
  show i ∈ ((View.whole main_v20).slice (win1_2.rect t)).set ↔ _
  rw [View.set_slice_whole, Rect.mem_set_unit]
  exact Iff.rfl

/-- The writing points' blocks cover the array, so after the region it holds the leaky step of the full product. -/
theorem final1 (c : Dev nD) : (dat1 V c).arrAt 2 cfg1.N = O1 V c :=
  (dat1 V c).arrAt_eq_of_cover 2 (O1 V c) (flushed_eq V c) fun i => by
    have hN : cfg1.N = 64 := N_1
    have hi0 : (i 0).val < 64 := (i 0).isLt
    have hi1 : (i 1).val < 8192 := (i 1).isLt
    let t : Fin cfg1.N := ⟨(i 1).val / 1024 * 8 + 7, by omega⟩
    have htv : t.val = (i 1).val / 1024 * 8 + 7 := rfl
    obtain ⟨-, -, -, -, e4, e5⟩ := idx1 t
    refine ⟨t, (flush1_2 t).mpr (by omega), ?_⟩
    rw [mem_blk1]
    intro a
    match a with
    | ⟨0, _⟩ => show win1_2.index t (0 : Fin 2) * 64 ≤ (i 0).val ∧ (i 0).val < win1_2.index t (0 : Fin 2) * 64 + 64; rw [e4]; omega
    | ⟨1, _⟩ => show win1_2.index t (1 : Fin 2) * 1024 ≤ (i 1).val ∧ (i 1).val < win1_2.index t (1 : Fin 2) * 1024 + 1024; rw [e5, htv]; omega

end Cert.KernelIdeal.Val1

end
-- ==== Proof.KI.Dm.lean ====
/-
  The scattered matrix. Before its two regions the kernel program runs, on the host, the same chain of operations
  as the reference: the two index columns are sliced out, negative indices wrapped by the extent, the columns joined
  again, and the updates scatter-added into a zero matrix. The matrix this leaves is therefore, as a term, the
  reference's scatter stage of the same index and update arrays. Nothing about its elements is used or needed: the
  two programs' shape records are different constants with the same fields, and the two terms agree by unfolding
  them (their side conditions are proofs, hence irrelevant).
-/
import proofs.«156660_j11716670783533_1_alg».proof.Proof.Gen.KernelIdeal.Regions
import proofs.«156660_j11716670783533_1_alg».proof.Proof.Gen.ReferenceIdeal.Read
import Idealize.ShloMosaic.Lib.StableHlo.Run

noncomputable section

namespace Cert.KernelIdeal.Dm

open Cert.KernelIdeal Cert.KernelIdeal.Gen Idealize.ShloMosaic Idealize.ShloMosaic.TcCoe Idealize.SL.Sem
open Idealize.ShloMosaic.StableHlo

/-- After the kernel program's host stretch, the scatter's result buffer holds the reference's scatter stage of the
    launch contents of the index and update arguments. -/
theorem dm_eq (m : (ℓ : Loc Cert.KernelIdeal.nD Cert.KernelIdeal.τ Cert.KernelIdeal.sig) → Buf (Elt Ideal) ℓ)
    (c : Dev Cert.KernelIdeal.nD) :
    (Cert.KernelIdeal.Gen.V1 (F := Ideal) m c (Proc.devRef .tc Cert.KernelIdeal.main_v18)
        : (⟨Cert.ReferenceIdeal.S8192x8192, .f32⟩ : BufTy).Contents (Elt Ideal))
      = Cert.ReferenceIdeal.Read.val_main_v20 (F := Ideal)
          (m ((c.tc : Thread _ _).loc Cert.KernelIdeal.main_arg2)) (m ((c.tc : Thread _ _).loc Cert.KernelIdeal.main_arg3)) := by
  show StableHlo.after (hostOps0 (F := Ideal)) (fun b => m (c, b)) (Proc.devRef .tc main_v18) = _
  after_results_simp
  unfold Cert.ReferenceIdeal.Read.val_main_v20 Cert.ReferenceIdeal.Read.val_main_v19 Cert.ReferenceIdeal.Read.val_main_v18
    Cert.ReferenceIdeal.Read.val_main_v17 Cert.ReferenceIdeal.Read.val_main_v16 Cert.ReferenceIdeal.Read.val_main_v15
    Cert.ReferenceIdeal.Read.val_main_v14 Cert.ReferenceIdeal.Read.val_main_v13 Cert.ReferenceIdeal.Read.val_main_v12
    Cert.ReferenceIdeal.Read.val_main_v11 Cert.ReferenceIdeal.Read.val_main_v10 Cert.ReferenceIdeal.Read.val_main_v9
    Cert.ReferenceIdeal.Read.val_main_v8 Cert.ReferenceIdeal.Read.val_main_v7 Cert.ReferenceIdeal.Read.val_main_v6
    Cert.ReferenceIdeal.Read.val_main_v5 Cert.ReferenceIdeal.Read.val_main_v4 Cert.ReferenceIdeal.Read.val_main_v3
    Cert.ReferenceIdeal.Read.val_main_v2 Cert.ReferenceIdeal.Read.val_main_cst Cert.ReferenceIdeal.Read.val_main_c
    Cert.ReferenceIdeal.Read.val_main_c_0 Cert.ReferenceIdeal.Read.val_main_c_1 Cert.ReferenceIdeal.Read.val_main_c_2
  rfl

end Cert.KernelIdeal.Dm

end
-- ==== Proof.Assemble.lean ====
import proofs.«156660_j11716670783533_1_alg».proof.Defs
import proofs.«156660_j11716670783533_1_alg».proof.Proof.KI.Main
import proofs.«156660_j11716670783533_1_alg».proof.Proof.KI.Value0
import proofs.«156660_j11716670783533_1_alg».proof.Proof.KI.Value1
import proofs.«156660_j11716670783533_1_alg».proof.Proof.KI.Dm
import proofs.«156660_j11716670783533_1_alg».proof.Proof.RefValue
import proofs.«156660_j11716670783533_1_alg».proof.Proof.Spec
import proofs.«156660_j11716670783533_1_alg».proof.Proof.Gen.Pre_finite_inputs

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem

variable (m : (ℓ : Loc nD τ sig) → Buf (Elt Ideal) ℓ) (ρ : Dev nD → PrngReg)

/-- The host stretch writes no argument array: region 0 finds each as launched. -/
theorem Ea_arg0 (c : Dev nD) : Ea m c main_arg0 = m ((c : Thread nD τ).loc main_arg0) := (V1_of m c main_arg0 (by decide)).trans rfl
theorem Ea_arg1 (c : Dev nD) : Ea m c main_arg1 = m ((c : Thread nD τ).loc main_arg1) := (V1_of m c main_arg1 (by decide)).trans rfl

/-- THE RESULT IN CLOSED FORM. Region 1 ends with the leaky step of (region 0's array) · (the scattered matrix);
    region 0's array is x·wᵀ; the scattered matrix is the host chain's, the same term the reference computes. -/
theorem result_G (c : Dev nD) :
    (dat1 (Eb m) c).arrAt 2 cfg1.N
      = Cert.Spec.G (m ((c : Thread nD τ).loc main_arg0)) (m ((c : Thread nD τ).loc main_arg1))
          (Cert.ReferenceIdeal.Read.val_main_v20 (F := Ideal) (m ((c : Thread nD τ).loc main_arg2)) (m ((c : Thread nD τ).loc main_arg3))) := by
  rw [Cert.KernelIdeal.Val1.final1]
  unfold Cert.KernelIdeal.Val1.O1
  rw [Eb_main_v19 m c, Eb_main_v18 m c, Cert.KernelIdeal.Val0.final0, Cert.KernelIdeal.Dm.dm_eq]
  unfold Cert.KernelIdeal.Val0.H0
  rw [Ea_arg0, Ea_arg1]
  rfl

/-- The kernel program's run with the result in closed form. -/
theorem run_G : θ_run defs (onTc (τ := τ) (main (F := Ideal))) ⟨m, fun _ => 0, ρ⟩ (fun r => ∀ c : Dev nD,
      r.2.mem ((c.tc : Thread nD τ).loc main_v20)
        = Cert.Spec.G (m ((c.tc : Thread nD τ).loc main_arg0)) (m ((c.tc : Thread nD τ).loc main_arg1))
            (Cert.ReferenceIdeal.Read.val_main_v20 (F := Ideal) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (result_G m c), (h c).2⟩) (run_value (F := Ideal) m ρ)

end Cert.KernelIdeal.Val

namespace Cert.Proof.Claims

open Idealize.ShloMosaic Idealize.SL.Sem

/-- Both idealized programs, from memories that agree on the arguments, end with the same array: each run's result
    is the one function `Cert.Spec.G` of the arguments. -/
theorem algebraic : Cert.algebraic_KernelIdeal_ReferenceIdeal := by
  intro m ρ m' ρ' _ hagree
  refine ⟨_, Cert.KernelIdeal.Val.run_G m ρ, ?_⟩
  refine (θ_run Cert.ReferenceIdeal.defs _ _).mono (fun _ h c => ⟨(h c).1.trans ?_, (h c).2⟩)
    (Cert.ReferenceIdeal.RefValue.run_G m' ρ')
  rw [(hagree c).1, (hagree c).2.1, (hagree c).2.2.1, (hagree c).2.2.2]

end Cert.Proof.Claims

end
-- ==== Proof.lean ====
/-
  The two programs compute, at the ideal instance, one function of the arguments:
    out[b, n] = leaky (∑ₖ (∑ⱼ x[b, j] · w[k, j]) · dm[k, n]),   leaky a = a if a ≥ 0, else slope · a,
  where dm is the matrix a host scatter-add builds from the index and weight arguments (the same host chain in both
  programs, kept as one opaque term). The kernel program computes each of the two products in its own grid of
  8 × 8 points, one [64, 1024] output block per n-block, accumulated over eight k-blocks of 1024 contraction
  indices in a scratch buffer that is reset at the first k-block and stored (after the leaky step, in the second
  product) at the last; the reference computes each product as one whole contraction. Over the extended reals
  addition is commutative and associative, so the left-nested sum of the eight blocks' shares is the whole sum;
  no finiteness is used.
  The frames of the two kernel programs: each region's invariant carries the accumulator's value from point to point;
  the body's three cases (first, inner, last k-block) are run once each on whole buffers.
-/
import proofs.«156660_j11716670783533_1_alg».proof.Defs
import proofs.«156660_j11716670783533_1_alg».proof.Proof.Gen.Kernel
import proofs.«156660_j11716670783533_1_alg».proof.Proof.Gen.KernelIdeal
import proofs.«156660_j11716670783533_1_alg».proof.Proof.Gen.ReferenceIdeal
import proofs.«156660_j11716670783533_1_alg».proof.Proof.Gen.Pre_finite_inputs
import proofs.«156660_j11716670783533_1_alg».proof.Proof.K.Main
import proofs.«156660_j11716670783533_1_alg».proof.Proof.KI.Main
import proofs.«156660_j11716670783533_1_alg».proof.Proof.RefValue
import proofs.«156660_j11716670783533_1_alg».proof.Proof.Assemble
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame (F := Bits) m ρ
theorem frame_ki : Cert.frame_KernelIdeal := fun m ρ _ => Cert.KernelIdeal.Fr.frame (F := Ideal) m ρ

theorem claim : Cert.Claim := ⟨Cert.Kernel.Gen.facts, Cert.KernelIdeal.Gen.facts, Cert.ReferenceIdeal.Gen.facts, Cert.Pre_finite_inputs.Gen.facts,
  frame_k, frame_ki, Cert.ReferenceIdeal.RefValue.frame_ri, trivial, Cert.Proof.Claims.algebraic⟩

end Cert.Proof

end
